-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x512 : Shape := ⟨4, ![8, 64, 64, 512]⟩
abbrev S512x64 : Shape := ⟨2, ![512, 64]⟩
abbrev S512x256 : Shape := ⟨2, ![512, 256]⟩
abbrev S256x512 : Shape := ⟨2, ![256, 512]⟩
abbrev S_ : Shape := ⟨0, ![]⟩

class Facts : Prop where
  bcast_S_S8x64x64x512 : S_.BroadcastsInDim S8x64x64x512 (![] : Fin 0 → Fin S8x64x64x512.rank)
  reducesTo_S8x64x64x512_S_d0_1_2_3 : S8x64x64x512.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S8x64x64x512 .f32) (main_arg1 : FVec F S512x64 .f32) (main_arg2 : FVec F S512x64 .f32) (main_arg3 : FVec F S512x256 .f32) (main_arg4 : FVec F S256x512 .f32) : IVec S_ 1 :=
  let main_v0 : FVec F S8x64x64x512 .f32 := Host.absf main_arg0
  let main_cst : FVec F S_ .f32 := constant S_ .f32 0x7F800000#32
  let main_v1 : FVec F S8x64x64x512 .f32 := broadcastInDim S8x64x64x512 ![] bcast_S_S8x64x64x512 main_cst
  let main_v2 : IVec S8x64x64x512 1 := cmpf .olt main_v0 main_v1
  let main_c : IVec S_ 1 := constantI S_ 1 1#1
  let main_v3 : IVec S_ 1 := (fun x v => Host.reduce IntOp.andi x v reducesTo_S8x64x64x512_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S8x64x64x512 : Shape := ⟨4, ![8, 64, 64, 512]⟩
abbrev S512x64 : Shape := ⟨2, ![512, 64]⟩
abbrev S512x256 : Shape := ⟨2, ![512, 256]⟩
abbrev S256x512 : Shape := ⟨2, ![256, 512]⟩
abbrev S8x1024x64 : Shape := ⟨3, ![8, 1024, 64]⟩
abbrev S8x1024x256 : Shape := ⟨3, ![8, 1024, 256]⟩
abbrev S1x64x64x512 : Shape := ⟨4, ![1, 64, 64, 512]⟩
abbrev S1x1024x64 : Shape := ⟨3, ![1, 1024, 64]⟩
abbrev S1x1024x256 : Shape := ⟨3, ![1, 1024, 256]⟩
abbrev S64x64x512 : Shape := ⟨3, ![64, 64, 512]⟩
abbrev S64x32x2x512 : Shape := ⟨4, ![64, 32, 2, 512]⟩
abbrev S64x32x512 : Shape := ⟨3, ![64, 32, 512]⟩
abbrev S32x2x32x512 : Shape := ⟨4, ![32, 2, 32, 512]⟩
abbrev S32x32x512 : Shape := ⟨3, ![32, 32, 512]⟩
abbrev S1024x512 : Shape := ⟨2, ![1024, 512]⟩
abbrev S1024x64 : Shape := ⟨2, ![1024, 64]⟩
abbrev S1024x256 : Shape := ⟨2, ![1024, 256]⟩
abbrev S1x16x64x512 : Shape := ⟨4, ![1, 16, 64, 512]⟩
abbrev S16x64x512 : Shape := ⟨3, ![16, 64, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 18
  | .smem => 0
  | _ => 0

abbrev bufTy : (tb : Table) → Fin (tcTables nBuf tb) → BufTy
  | .hbm, ⟨0, _⟩ => ⟨S8x64x64x512, .f32⟩
  | .hbm, ⟨1, _⟩ => ⟨S512x64, .f32⟩
  | .hbm, ⟨2, _⟩ => ⟨S512x64, .f32⟩
  | .hbm, ⟨3, _⟩ => ⟨S512x256, .f32⟩
  | .hbm, ⟨4, _⟩ => ⟨S256x512, .f32⟩
  | .hbm, ⟨5, _⟩ => ⟨S8x1024x64, .bf16⟩
  | .hbm, ⟨6, _⟩ => ⟨S8x1024x256, .bf16⟩
  | .hbm, ⟨7, _⟩ => ⟨S8x64x64x512, .f32⟩
  | .local _ .vmem, ⟨0, _⟩ => ⟨S1x64x64x512, .f32⟩
  | .local _ .vmem, ⟨1, _⟩ => ⟨S1x64x64x512, .f32⟩
  | .local _ .vmem, ⟨2, _⟩ => ⟨S512x64, .f32⟩
  | .local _ .vmem, ⟨3, _⟩ => ⟨S512x256, .f32⟩
  | .local _ .vmem, ⟨4, _⟩ => ⟨S1x1024x64, .bf16⟩
  | .local _ .vmem, ⟨5, _⟩ => ⟨S1x1024x64, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x16x64x512, .f32⟩
  | .local _ .vmem, ⟨9, _⟩ => ⟨S1x16x64x512, .f32⟩
  | .local _ .vmem, ⟨10, _⟩ => ⟨S512x64, .f32⟩
  | .local _ .vmem, ⟨11, _⟩ => ⟨S256x512, .f32⟩
  | .local _ .vmem, ⟨12, _⟩ => ⟨S1x1024x64, .bf16⟩
  | .local _ .vmem, ⟨13, _⟩ => ⟨S1x1024x64, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x16x64x512, .f32⟩
  | .local _ .vmem, ⟨17, _⟩ => ⟨S1x16x64x512, .f32⟩
  | _, _ => ⟨S8x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x16x64x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  shapeCasts_S64x64x512_S64x32x2x512 : S64x64x512.ShapeCasts S64x32x2x512
  reduces_S64x32x2x512_S64x32x512 : S64x32x2x512.Reduces [2] S64x32x512
  shapeCasts_S64x32x512_S32x2x32x512 : S64x32x512.ShapeCasts S32x2x32x512
  reduces_S32x2x32x512_S32x32x512 : S32x2x32x512.Reduces [1] S32x32x512
  shapeCasts_S32x32x512_S1024x512 : S32x32x512.ShapeCasts S1024x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S512x256_S512x256_0_0 : ∀ a, (![0, 0] : Fin 2 → Nat) a + S512x256.size a ≤ S512x256.size a
  h_S512x256 : 0 < S512x256.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  shapeCasts_S16x64x512_S1024x512 : S16x64x512.ShapeCasts S1024x512
  reduces_S1024x1024_S1024 : S1024x1024.Reduces [1] S1024
  shapeCasts_S1024_S1024x1 : S1024.ShapeCasts S1024x1
  broadcasts_S1024x1_S1024x1024 : S1024x1.Broadcasts S1024x1024
  inb_S256x512_S256x512_0_0 : ∀ a, (![0, 0] : Fin 2 → Nat) a + S256x512.size a ≤ S256x512.size a
  h_S256x512 : 0 < S256x512.numel
  shapeCasts_S1024x512_S16x64x512 : S1024x512.ShapeCasts S16x64x512
  shapeCasts_S16x64x512_S1x16x64x512 : S16x64x512.ShapeCasts S1x16x64x512
  dot_S1024x512_S512x64_S1024x64_1_0_0_1_n_n_wf : DotDims.WF S1024x512 S512x64 S1024x64 [1] [0] [0] [1] [] []
  dot_S1024x512_S512x256_S1024x256_1_0_0_1_n_n_wf : DotDims.WF S1024x512 S512x256 S1024x256 [1] [0] [0] [1] [] []
  dot_S1024x64_S1024x64_S1024x1024_1_1_0_0_n_n_wf : DotDims.WF S1024x64 S1024x64 S1024x1024 [1] [1] [0] [0] [] []
  dot_S1024x1024_S1024x256_S1024x256_1_0_0_1_n_n_wf : DotDims.WF S1024x1024 S1024x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S8x64x64x512.size a
  hwx0_0 : ∀ i : grid0.Coords, EltTy.bits .f32 = 32 ∨ (Rect.block (s := S8x64x64x512) S1x64x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x1024x64.size a
  hwx0_3 : ∀ i : grid0.Coords, EltTy.bits .bf16 = 32 ∨ (Rect.block (s := S8x1024x64) S1x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x1024x256.size a
  hwx0_4 : ∀ i : grid0.Coords, EltTy.bits .bf16 = 32 ∨ (Rect.block (s := S8x1024x256) S1x1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x64x512.size a ≤ S8x64x64x512.size a
  hwx1_0 : ∀ i : grid1.Coords, EltTy.bits .f32 = 32 ∨ (Rect.block (s := S8x64x64x512) S1x16x64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S8x1024x64.size a
  hwx1_3 : ∀ i : grid1.Coords, EltTy.bits .bf16 = 32 ∨ (Rect.block (s := S8x1024x64) S1x1024x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x256.size a ≤ S8x1024x256.size a
  hwx1_4 : ∀ i : grid1.Coords, EltTy.bits .bf16 = 32 ∨ (Rect.block (s := S8x1024x256) S1x1024x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x64x512.size a ≤ S8x64x64x512.size a
  hwx1_5 : ∀ i : grid1.Coords, EltTy.bits .f32 = 32 ∨ (Rect.block (s := S8x64x64x512) S1x16x64x512.size (cc1_transform_5 i) (hinb1_5 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x16x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S1x1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S1x1024x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x16x64x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x64x64x512 : Shape := ⟨4, ![8, 64, 64, 512]⟩
abbrev S512x64 : Shape := ⟨2, ![512, 64]⟩
abbrev S512x256 : Shape := ⟨2, ![512, 256]⟩
abbrev S256x512 : Shape := ⟨2, ![256, 512]⟩
abbrev S8x64x64x64 : Shape := ⟨4, ![8, 64, 64, 64]⟩
abbrev S8x4096x64 : Shape := ⟨3, ![8, 4096, 64]⟩
abbrev S8x32x2x32x2x512 : Shape := ⟨6, ![8, 32, 2, 32, 2, 512]⟩
abbrev S_ : Shape := ⟨0, ![]⟩
abbrev S8x32x32x512 : Shape := ⟨4, ![8, 32, 32, 512]⟩
abbrev S8x32x32x64 : Shape := ⟨4, ![8, 32, 32, 64]⟩
abbrev S8x1024x64 : Shape := ⟨3, ![8, 1024, 64]⟩
abbrev S8x32x32x256 : Shape := ⟨4, ![8, 32, 32, 256]⟩
abbrev S8x1024x256 : Shape := ⟨3, ![8, 1024, 256]⟩
abbrev S8x4096x1024 : Shape := ⟨3, ![8, 4096, 1024]⟩
abbrev S8x4096 : Shape := ⟨2, ![8, 4096]⟩
abbrev S8x4096x1 : Shape := ⟨3, ![8, 4096, 1]⟩
abbrev S8x4096x256 : Shape := ⟨3, ![8, 4096, 256]⟩
abbrev S8x64x64x256 : Shape := ⟨4, ![8, 64, 64, 256]⟩

abbrev nBuf : Space → Nat
  | .hbm => 35
  | .vmem => 0
  | .smem => 0
  | _ => 0

abbrev bufTy : (tb : Table) → Fin (tcTables nBuf tb) → BufTy
  | .hbm, ⟨0, _⟩ => ⟨S8x64x64x512, .f32⟩
  | .hbm, ⟨1, _⟩ => ⟨S512x64, .f32⟩
  | .hbm, ⟨2, _⟩ => ⟨S512x64, .f32⟩
  | .hbm, ⟨3, _⟩ => ⟨S512x256, .f32⟩
  | .hbm, ⟨4, _⟩ => ⟨S256x512, .f32⟩
  | .hbm, ⟨5, _⟩ => ⟨S8x64x64x64, .f32⟩
  | .hbm, ⟨6, _⟩ => ⟨S8x4096x64, .f32⟩
  | .hbm, ⟨7, _⟩ => ⟨S8x32x2x32x2x512, .f32⟩
  | .hbm, ⟨8, _⟩ => ⟨S_, .f32⟩
  | .hbm, ⟨9, _⟩ => ⟨S8x32x32x512, .f32⟩
  | .hbm, ⟨10, _⟩ => ⟨S_, .f32⟩
  | .hbm, ⟨11, _⟩ => ⟨S8x32x32x512, .f32⟩
  | .hbm, ⟨12, _⟩ => ⟨S8x32x32x512, .f32⟩
  | .hbm, ⟨13, _⟩ => ⟨S8x32x32x64, .f32⟩
  | .hbm, ⟨14, _⟩ => ⟨S8x1024x64, .f32⟩
  | .hbm, ⟨15, _⟩ => ⟨S8x32x32x256, .f32⟩
  | .hbm, ⟨16, _⟩ => ⟨S8x1024x256, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S8x4096, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S8x4096x256, .f32⟩
  | .hbm, ⟨33, _⟩ => ⟨S8x64x64x256, .f32⟩
  | .hbm, ⟨34, _⟩ => ⟨S8x64x64x512, .f32⟩
  | _, _ => ⟨S8x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  shapeCasts_S8x64x64x64_S8x4096x64 : S8x64x64x64.ShapeCasts S8x4096x64
  shapeCasts_S8x64x64x512_S8x32x2x32x2x512 : S8x64x64x512.ShapeCasts S8x32x2x32x2x512
  reducesTo_S8x32x2x32x2x512_S8x32x32x512_d2_4 : S8x32x2x32x2x512.ReducesTo [2, 4] S8x32x32x512
  h_S_ : 0 < S_.numel
  bcast_S_S8x32x32x512 : S_.BroadcastsInDim S8x32x32x512 (![] : Fin 0 → Fin S8x32x32x512.rank)
  shapeCasts_S8x32x32x64_S8x1024x64 : S8x32x32x64.ShapeCasts S8x1024x64
  shapeCasts_S8x32x32x256_S8x1024x256 : S8x32x32x256.ShapeCasts S8x1024x256
  reducesTo_S8x4096x1024_S8x4096_d2 : S8x4096x1024.ReducesTo [2] S8x4096
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  shapeCasts_S8x4096x256_S8x64x64x256 : S8x4096x256.ShapeCasts S8x64x64x256
  dot_S8x64x64x512_S512x64_S8x64x64x64_3_0_012_1_n_n_wf : DotDims.WF S8x64x64x512 S512x64 S8x64x64x64 [3] [0] [0, 1, 2] [1] [] []
  dot_S8x32x32x512_S512x64_S8x32x32x64_3_0_012_1_n_n_wf : DotDims.WF S8x32x32x512 S512x64 S8x32x32x64 [3] [0] [0, 1, 2] [1] [] []
  dot_S8x32x32x512_S512x256_S8x32x32x256_3_0_012_1_n_n_wf : DotDims.WF S8x32x32x512 S512x256 S8x32x32x256 [3] [0] [0, 1, 2] [1] [] []
  dot_S8x4096x64_S8x1024x64_S8x4096x1024_2_2_1_1_0_0_wf : DotDims.WF S8x4096x64 S8x1024x64 S8x4096x1024 [2] [2] [1] [1] [0] [0]
  dot_S8x4096x1024_S8x1024x256_S8x4096x256_2_1_1_2_0_0_wf : DotDims.WF S8x4096x1024 S8x1024x256 S8x4096x256 [2] [1] [1] [2] [0] [0]
  dot_S8x64x64x256_S256x512_S8x64x64x512_3_0_012_1_n_n_wf : DotDims.WF S8x64x64x256 S256x512 S8x64x64x512 [3] [0] [0, 1, 2] [1] [] []

variable [Facts₀]

def dot_S8x64x64x512_S512x64_S8x64x64x64_3_0_012_1_n_n : DotDims S8x64x64x512 S512x64 S8x64x64x64 where
  lhsContracting := [3]
  rhsContracting := [0]
  lhsNonContracting := [0, 1, 2]
  rhsNonContracting := [1]
  lhsBatch := []
  rhsBatch := []
  wf := dot_S8x64x64x512_S512x64_S8x64x64x64_3_0_012_1_n_n_wf
def dot_S8x32x32x512_S512x64_S8x32x32x64_3_0_012_1_n_n : DotDims S8x32x32x512 S512x64 S8x32x32x64 where
  lhsContracting := [3]
  rhsContracting := [0]
  lhsNonContracting := [0, 1, 2]
  rhsNonContracting := [1]
  lhsBatch := []
  rhsBatch := []
  wf := dot_S8x32x32x512_S512x64_S8x32x32x64_3_0_012_1_n_n_wf
def dot_S8x32x32x512_S512x256_S8x32x32x256_3_0_012_1_n_n : DotDims S8x32x32x512 S512x256 S8x32x32x256 where
  lhsContracting := [3]
  rhsContracting := [0]
  lhsNonContracting := [0, 1, 2]
  rhsNonContracting := [1]
  lhsBatch := []
  rhsBatch := []
  wf := dot_S8x32x32x512_S512x256_S8x32x32x256_3_0_012_1_n_n_wf
def dot_S8x4096x64_S8x1024x64_S8x4096x1024_2_2_1_1_0_0 : DotDims S8x4096x64 S8x1024x64 S8x4096x1024 where
  lhsContracting := [2]
  rhsContracting := [2]
  lhsNonContracting := [1]
  rhsNonContracting := [1]
  lhsBatch := [0]
  rhsBatch := [0]
  wf := dot_S8x4096x64_S8x1024x64_S8x4096x1024_2_2_1_1_0_0_wf
def dot_S8x4096x1024_S8x1024x256_S8x4096x256_2_1_1_2_0_0 : DotDims S8x4096x1024 S8x1024x256 S8x4096x256 where
  lhsContracting := [2]
  rhsContracting := [1]
  lhsNonContracting := [1]
  rhsNonContracting := [2]
  lhsBatch := [0]
  rhsBatch := [0]
  wf := dot_S8x4096x1024_S8x1024x256_S8x4096x256_2_1_1_2_0_0_wf
def dot_S8x64x64x256_S256x512_S8x64x64x512_3_0_012_1_n_n : DotDims S8x64x64x256 S256x512 S8x64x64x512 where
  lhsContracting := [3]
  rhsContracting := [0]
  lhsNonContracting := [0, 1, 2]
  rhsNonContracting := [1]
  lhsBatch := []
  rhsBatch := []
  wf := dot_S8x64x64x256_S256x512_S8x64x64x512_3_0_012_1_n_n_wf

class Facts : Prop extends Facts₀ where

variable [Facts]
-- ==== Proof.ResultRun.lean ====
/-
  The idealized kernel's run with its RESULT named. @main is two pallas_calls and nothing else, so every
  weakly fair execution ends with each unscoped buffer at the contents the second region's write-backs
  leave. The arguments are read back to the launch memory; the result array is what the second pipeline's
  output window has been flushed to, block by block, at the end of its grid.
-/
import proofs.«125331_j85822036508890_2_alg».proof.Proof.Gen.KernelIdeal.Frame

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result array ends at the contents the
    second region leaves in it, and the five argument arrays end as launched. -/
theorem run_result : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end Cert.KernelIdeal.Attn

end
-- ==== Proof.Dots.lean ====
/-
  The five matrix products of the two kernel bodies, each read at one output entry as the sum over the
  contracted coordinate of the operands' products (the accumulator is the zero splat, which is the
  extended real 0). Four of them contract a row of the left operand with a column of the right one;
  the score product f·gᵀ contracts a row of f with a ROW of g.
-/
import proofs.«125331_j85822036508890_2_alg».proof.Proof.Gen.KernelIdeal
import Idealize.ShloMosaic.Lib.ValueIdx
import Idealize.ShloMosaic.PureOps.Ideal.Laws

noncomputable section

namespace Cert.KernelIdeal.Attn

open Cert.KernelIdeal Idealize.ShloMosaic Idealize.ShloMosaic.ValueIdx

/-- Rows of a [1024,512] matrix against columns of a [512,64] one: the pooled map against wg, and a query tile against wf. -/
theorem mm_512_64_l (i : S1024x64.Idx) (q : dot_S1024x512_S512x64_S1024x64_1_0_0_1_n_n.contr.Idx) : (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem mm_512_64_r (i : S1024x64.Idx) (q : dot_S1024x512_S512x64_S1024x64_1_0_0_1_n_n.contr.Idx) : (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl
theorem mm_512_64 {φ₁ φ₂ : FTy} (l : FVec Ideal S1024x512 φ₁) (r : FVec Ideal S512x64 φ₂) (n : Fin 1024) (m : Fin 64) :
    matmul dot_S1024x512_S512x64_S1024x64_1_0_0_1_n_n none l r (constant S1024x64 .f32 0x00000000#32) (ix2 n m)
      = ∑ k : Fin 512, l (ix2 n k) * r (ix2 k m) := by
  show FloatOps.matmul dot_S1024x512_S512x64_S1024x64_1_0_0_1_n_n none l r (constant S1024x64 .f32 0x00000000#32) (ix2 n m) = _
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 n m) ((contrEquiv1 dot_S1024x512_S512x64_S1024x64_1_0_0_1_n_n 512 rfl rfl).symm k) = ix2 n k :=
    funext fun a => Fin.ext (by
      match a with
      | ⟨0, _⟩ => exact mm_512_64_l _ _
      | ⟨1, _⟩ => exact (dot_S1024x512_S512x64_S1024x64_1_0_0_1_n_n.lhsIdx_val_of_single rfl _ _).trans hk)
  have er : dot_S1024x512_S512x64_S1024x64_1_0_0_1_n_n.rhsIdx (ix2 n m) ((contrEquiv1 dot_S1024x512_S512x64_S1024x64_1_0_0_1_n_n 512 rfl rfl).symm k) = ix2 k m :=
    funext fun a => Fin.ext (by
      match a with
      | ⟨1, _⟩ => exact mm_512_64_r _ _
      | ⟨0, _⟩ => exact (dot_S1024x512_S512x64_S1024x64_1_0_0_1_n_n.rhsIdx_val_of_single rfl _ _).trans hk)
  rw [el, er]

/-- Rows of the pooled [1024,512] map against columns of wh. -/
theorem mm_512_256_l (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem mm_512_256_r (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl
theorem mm_512_256 {φ₁ φ₂ : FTy} (l : FVec Ideal S1024x512 φ₁) (r : FVec Ideal S512x256 φ₂) (n : Fin 1024) (m : Fin 256) :
    matmul dot_S1024x512_S512x256_S1024x256_1_0_0_1_n_n none l r (constant S1024x256 .f32 0x00000000#32) (ix2 n m)
      = ∑ k : Fin 512, l (ix2 n k) * r (ix2 k m) := by
  show FloatOps.matmul dot_S1024x512_S512x256_S1024x256_1_0_0_1_n_n none l r (constant S1024x256 .f32 0x00000000#32) (ix2 n m) = _
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 n m) ((contrEquiv1 dot_S1024x512_S512x256_S1024x256_1_0_0_1_n_n 512 rfl rfl).symm k) = ix2 n k :=
    funext fun a => Fin.ext (by
      match a with
      | ⟨0, _⟩ => exact mm_512_256_l _ _
      | ⟨1, _⟩ => exact (dot_S1024x512_S512x256_S1024x256_1_0_0_1_n_n.lhsIdx_val_of_single rfl _ _).trans hk)
  have er : dot_S1024x512_S512x256_S1024x256_1_0_0_1_n_n.rhsIdx (ix2 n m) ((contrEquiv1 dot_S1024x512_S512x256_S1024x256_1_0_0_1_n_n 512 rfl rfl).symm k) = ix2 k m :=
    funext fun a => Fin.ext (by
      match a with
      | ⟨1, _⟩ => exact mm_512_256_r _ _
      | ⟨0, _⟩ => exact (dot_S1024x512_S512x256_S1024x256_1_0_0_1_n_n.rhsIdx_val_of_single rfl _ _).trans hk)
  rw [el, er]

/-- The scores: row n of the queries against ROW m of the keys (both [1024,64]). -/
theorem mm_scores_l (i : S1024x1024.Idx) (q : dot_S1024x64_S1024x64_S1024x1024_1_1_0_0_n_n.contr.Idx) : (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem mm_scores_r (i : S1024x1024.Idx) (q : dot_S1024x64_S1024x64_S1024x1024_1_1_0_0_n_n.contr.Idx) : (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem mm_scores {φ₁ φ₂ : FTy} (l : FVec Ideal S1024x64 φ₁) (r : FVec Ideal S1024x64 φ₂) (n : Fin 1024) (m : Fin 1024) :
    matmul dot_S1024x64_S1024x64_S1024x1024_1_1_0_0_n_n none l r (constant S1024x1024 .f32 0x00000000#32) (ix2 n m)
      = ∑ k : Fin 64, l (ix2 n k) * r (ix2 m k) := by
  show FloatOps.matmul dot_S1024x64_S1024x64_S1024x1024_1_1_0_0_n_n none l r (constant S1024x1024 .f32 0x00000000#32) (ix2 n m) = _
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 n m) ((contrEquiv1 dot_S1024x64_S1024x64_S1024x1024_1_1_0_0_n_n 64 rfl rfl).symm k) = ix2 n k :=
    funext fun a => Fin.ext (by
      match a with
      | ⟨0, _⟩ => exact mm_scores_l _ _
      | ⟨1, _⟩ => exact (dot_S1024x64_S1024x64_S1024x1024_1_1_0_0_n_n.lhsIdx_val_of_single rfl _ _).trans hk)
  have er : dot_S1024x64_S1024x64_S1024x1024_1_1_0_0_n_n.rhsIdx (ix2 n m) ((contrEquiv1 dot_S1024x64_S1024x64_S1024x1024_1_1_0_0_n_n 64 rfl rfl).symm k) = ix2 m k :=
    funext fun a => Fin.ext (by
      match a with
      | ⟨0, _⟩ => exact mm_scores_r _ _
      | ⟨1, _⟩ => exact (dot_S1024x64_S1024x64_S1024x1024_1_1_0_0_n_n.rhsIdx_val_of_single rfl _ _).trans hk)
  rw [el, er]

/-- Rows of the attention weights [1024,1024] against columns of the values [1024,256]. -/
theorem mm_1024_256_l (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem mm_1024_256_r (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
theorem mm_1024_256 {φ₁ φ₂ : FTy} (l : FVec Ideal S1024x1024 φ₁) (r : FVec Ideal S1024x256 φ₂) (n : Fin 1024) (m : Fin 256) :
    matmul dot_S1024x1024_S1024x256_S1024x256_1_0_0_1_n_n none l r (constant S1024x256 .f32 0x00000000#32) (ix2 n m)
      = ∑ k : Fin 1024, l (ix2 n k) * r (ix2 k m) := by
  show FloatOps.matmul dot_S1024x1024_S1024x256_S1024x256_1_0_0_1_n_n none l r (constant S1024x256 .f32 0x00000000#32) (ix2 n m) = _
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 n m) ((contrEquiv1 dot_S1024x1024_S1024x256_S1024x256_1_0_0_1_n_n 1024 rfl rfl).symm k) = ix2 n k :=
    funext fun a => Fin.ext (by
      match a with
      | ⟨0, _⟩ => exact mm_1024_256_l _ _
      | ⟨1, _⟩ => exact (dot_S1024x1024_S1024x256_S1024x256_1_0_0_1_n_n.lhsIdx_val_of_single rfl _ _).trans hk)
  have er : dot_S1024x1024_S1024x256_S1024x256_1_0_0_1_n_n.rhsIdx (ix2 n m) ((contrEquiv1 dot_S1024x1024_S1024x256_S1024x256_1_0_0_1_n_n 1024 rfl rfl).symm k) = ix2 k m :=
    funext fun a => Fin.ext (by
      match a with
      | ⟨1, _⟩ => exact mm_1024_256_r _ _
      | ⟨0, _⟩ => exact (dot_S1024x1024_S1024x256_S1024x256_1_0_0_1_n_n.rhsIdx_val_of_single rfl _ _).trans hk)
  rw [el, er]

/-- Rows of the attended values [1024,256] against columns of wo. -/
theorem mm_256_512_l (i : S1024x512.Idx) (q : dot_S1024x256_S256x512_S1024x512_1_0_0_1_n_n.contr.Idx) : (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem mm_256_512_r (i : S1024x512.Idx) (q : dot_S1024x256_S256x512_S1024x512_1_0_0_1_n_n.contr.Idx) : (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl
theorem mm_256_512 {φ₁ φ₂ : FTy} (l : FVec Ideal S1024x256 φ₁) (r : FVec Ideal S256x512 φ₂) (n : Fin 1024) (m : Fin 512) :
    matmul dot_S1024x256_S256x512_S1024x512_1_0_0_1_n_n none l r (constant S1024x512 .f32 0x00000000#32) (ix2 n m)
      = ∑ k : Fin 256, l (ix2 n k) * r (ix2 k m) := by
  show FloatOps.matmul dot_S1024x256_S256x512_S1024x512_1_0_0_1_n_n none l r (constant S1024x512 .f32 0x00000000#32) (ix2 n m) = _
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 n m) ((contrEquiv1 dot_S1024x256_S256x512_S1024x512_1_0_0_1_n_n 256 rfl rfl).symm k) = ix2 n k :=
    funext fun a => Fin.ext (by
      match a with
      | ⟨0, _⟩ => exact mm_256_512_l _ _
      | ⟨1, _⟩ => exact (dot_S1024x256_S256x512_S1024x512_1_0_0_1_n_n.lhsIdx_val_of_single rfl _ _).trans hk)
  have er : dot_S1024x256_S256x512_S1024x512_1_0_0_1_n_n.rhsIdx (ix2 n m) ((contrEquiv1 dot_S1024x256_S256x512_S1024x512_1_0_0_1_n_n 256 rfl rfl).symm k) = ix2 k m :=
    funext fun a => Fin.ext (by
      match a with
      | ⟨1, _⟩ => exact mm_256_512_r _ _
      | ⟨0, _⟩ => exact (dot_S1024x256_S256x512_S1024x512_1_0_0_1_n_n.rhsIdx_val_of_single rfl _ _).trans hk)
  rw [el, er]

end Cert.KernelIdeal.Attn

end
-- ==== Proof.RefStages.lean ====
/-
  The reference's attention, stage by stage, each stage read at one entry given by literal coordinates in
  terms of the stages before it: queries f = x·wf on the 4096 positions of a batch, keys g and values h
  from the pooled map, scores s = f·gᵀ, the row maximum, the exponentials of s minus that maximum, their
  row sum, the quotient, the attended values y and the output projection y·wo. Reshapes between
  [8,64,64,·] and [8,4096,·] (and [8,32,32,·], [8,1024,·]) only rename positions: N = 64·h + w, n = 32·p + q.
-/
import proofs.«125331_j85822036508890_2_alg».proof.Proof.Gen.ReferenceIdeal.Read

noncomputable section

namespace Cert.ReferenceIdeal.Attn

open Cert.ReferenceIdeal Cert.ReferenceIdeal.Read Cert.ReferenceIdeal.Gen Idealize.ShloMosaic Idealize.ShloMosaic.ValueIdx

variable (X : (⟨S8x64x64x512, .f32⟩ : BufTy).Contents (Elt Ideal)) (Wf Wg : (⟨S512x64, .f32⟩ : BufTy).Contents (Elt Ideal)) (Wh : (⟨S512x256, .f32⟩ : BufTy).Contents (Elt Ideal)) (Wo : (⟨S256x512, .f32⟩ : BufTy).Contents (Elt Ideal))

/-- Keys: row n = 32·p + q of batch b contracts the pooled map at (b,p,q,·) with a column of wg. -/
theorem ref_g (b : Fin 8) (n : Fin 1024) (d : Fin 64) :
    val_main_v7 (F := Ideal) X Wg (ix3 b n d)
      = ∑ k : Fin 512, val_main_v5 (F := Ideal) X (ix4 b (⟨n.val / 32, by omega⟩ : Fin 32) (⟨n.val % 32, by omega⟩ : Fin 32) k) * Wg (ix2 k d) := by
  rw [val_main_v7_apply, val_main_v6_apply]
  refine Finset.sum_congr rfl fun k _ => ?_
  have e1 : lidx_main_v6 (idx_main_v7 (ix3 b n d)) k = ix4 b (⟨n.val / 32, by omega⟩ : Fin 32) (⟨n.val % 32, by omega⟩ : Fin 32) k :=
    funext fun a => Fin.ext (by
      match a with
      | ⟨0, _⟩ => show ((b.val * 1024 + n.val) * 64 + d.val) / 65536 = b.val; omega
      | ⟨1, _⟩ => show ((b.val * 1024 + n.val) * 64 + d.val) / 2048 % 32 = n.val / 32; omega
      | ⟨2, _⟩ => show ((b.val * 1024 + n.val) * 64 + d.val) / 64 % 32 = n.val % 32; omega
      | ⟨3, _⟩ => rfl)
  have e2 : ridx_main_v6 (idx_main_v7 (ix3 b n d)) k = ix2 k d :=
    funext fun a => Fin.ext (by
      match a with
      | ⟨0, _⟩ => rfl
      | ⟨1, _⟩ => show ((b.val * 1024 + n.val) * 64 + d.val) % 64 = d.val; omega)
  rw [e1, e2]

/-- Values: the same with wh. -/
theorem ref_h (b : Fin 8) (n : Fin 1024) (e : Fin 256) :
    val_main_v9 (F := Ideal) X Wh (ix3 b n e)
      = ∑ k : Fin 512, val_main_v5 (F := Ideal) X (ix4 b (⟨n.val / 32, by omega⟩ : Fin 32) (⟨n.val % 32, by omega⟩ : Fin 32) k) * Wh (ix2 k e) := by
  rw [val_main_v9_apply, val_main_v8_apply]
  refine Finset.sum_congr rfl fun k _ => ?_
  have e1 : lidx_main_v8 (idx_main_v9 (ix3 b n e)) k = ix4 b (⟨n.val / 32, by omega⟩ : Fin 32) (⟨n.val % 32, by omega⟩ : Fin 32) k :=
    funext fun a => Fin.ext (by
      match a with
      | ⟨0, _⟩ => show ((b.val * 1024 + n.val) * 256 + e.val) / 262144 = b.val; omega
      | ⟨1, _⟩ => show ((b.val * 1024 + n.val) * 256 + e.val) / 8192 % 32 = n.val / 32; omega
      | ⟨2, _⟩ => show ((b.val * 1024 + n.val) * 256 + e.val) / 256 % 32 = n.val % 32; omega
      | ⟨3, _⟩ => rfl)
  have e2 : ridx_main_v8 (idx_main_v9 (ix3 b n e)) k = ix2 k e :=
    funext fun a => Fin.ext (by
      match a with
      | ⟨0, _⟩ => rfl
      | ⟨1, _⟩ => show ((b.val * 1024 + n.val) * 256 + e.val) % 256 = e.val; omega)
  rw [e1, e2]

/-- Queries: position N = 64·h + w of batch b contracts the image at (b,h,w,·) with a column of wf. -/
theorem ref_f (b : Fin 8) (N : Fin 4096) (d : Fin 64) :
    val_main_v1 (F := Ideal) X Wf (ix3 b N d)
      = ∑ k : Fin 512, X (ix4 b (⟨N.val / 64, by omega⟩ : Fin 64) (⟨N.val % 64, by omega⟩ : Fin 64) k) * Wf (ix2 k d) := by
  rw [val_main_v1_apply, val_main_v0_apply]
  refine Finset.sum_congr rfl fun k _ => ?_
  have e1 : lidx_main_v0 (idx_main_v1 (ix3 b N d)) k = ix4 b (⟨N.val / 64, by omega⟩ : Fin 64) (⟨N.val % 64, by omega⟩ : Fin 64) k :=
    funext fun a => Fin.ext (by
      match a with
      | ⟨0, _⟩ => show ((b.val * 4096 + N.val) * 64 + d.val) / 262144 = b.val; omega
      | ⟨1, _⟩ => show ((b.val * 4096 + N.val) * 64 + d.val) / 4096 % 64 = N.val / 64; omega
      | ⟨2, _⟩ => show ((b.val * 4096 + N.val) * 64 + d.val) / 64 % 64 = N.val % 64; omega
      | ⟨3, _⟩ => rfl)
  have e2 : ridx_main_v0 (idx_main_v1 (ix3 b N d)) k = ix2 k d :=
    funext fun a => Fin.ext (by
      match a with
      | ⟨0, _⟩ => rfl
      | ⟨1, _⟩ => show ((b.val * 4096 + N.val) * 64 + d.val) % 64 = d.val; omega)
  rw [e1, e2]

/-- Scores: query N against key m, contracted over the 64 features. -/
theorem ref_s (b : Fin 8) (N : Fin 4096) (m : Fin 1024) :
    val_main_v10 (F := Ideal) X Wf Wg (ix3 b N m)
      = ∑ k : Fin 64, val_main_v1 (F := Ideal) X Wf (ix3 b N k) * val_main_v7 (F := Ideal) X Wg (ix3 b m k) := by
  rw [val_main_v10_apply]
  refine Finset.sum_congr rfl fun k _ => ?_
  have e1 : lidx_main_v10 (ix3 b N m) k = ix3 b N k :=
    funext fun a => Fin.ext (by match a with | ⟨0, _⟩ => rfl | ⟨1, _⟩ => rfl | ⟨2, _⟩ => rfl)
  have e2 : ridx_main_v10 (ix3 b N m) k = ix3 b m k :=
    funext fun a => Fin.ext (by match a with | ⟨0, _⟩ => rfl | ⟨1, _⟩ => rfl | ⟨2, _⟩ => rfl)
  rw [e1, e2]

/-- The row maximum: the fold of max from −∞'s pattern over the 1024 keys (the outer maximum with the same
    pattern changes nothing: the fold is already above its starting value). -/
theorem ref_max (b : Fin 8) (N : Fin 4096) :
    val_main_v13 (F := Ideal) X Wf Wg (ix2 b N)
      = (Finset.univ : Finset (Fin 1024)).fold max (Ideal.ofBits .f32 0xFF800000#32)
          (fun m : Fin 1024 => val_main_v10 (F := Ideal) X Wf Wg (ix3 b N m)) := by
  have hr : S8x4096x1024.Reduces [2] S8x4096 := by decide
  have hf : ((val_main_v10 (F := Ideal) X Wf Wg) ∘ hr.lift (ix2 b N))
      = fun m : Fin 1024 => val_main_v10 (F := Ideal) X Wf Wg (ix3 b N m) :=
    funext fun m => congrArg (val_main_v10 (F := Ideal) X Wf Wg) (funext fun a => Fin.ext (by
      match a with | ⟨0, _⟩ => rfl | ⟨1, _⟩ => rfl | ⟨2, _⟩ => rfl))
  rw [val_main_v13_apply, val_main_v12_apply, val_main_cst_2_apply]
  unfold val_main_v11
  rw [Host.reduce_eq_fold_single FloatOps.maximumf _ _ reducesTo_S8x4096x1024_S8x4096_d2 hr h_S_, hf]
  show max (Ideal.ofBits .f32 0xFF800000#32)
    (Finset.fold max (Ideal.ofBits .f32 0xFF800000#32) _ (Finset.univ : Finset (Fin 1024))) = _
  exact max_eq_right ((Finset.le_fold_max _).2 (Or.inl le_rfl))

/-- The exponential of a score less its row's maximum. -/
theorem ref_exp (b : Fin 8) (N : Fin 4096) (m : Fin 1024) :
    val_main_v17 (F := Ideal) X Wf Wg (ix3 b N m)
      = Ideal.exp (val_main_v10 (F := Ideal) X Wf Wg (ix3 b N m) - val_main_v13 (F := Ideal) X Wf Wg (ix2 b N)) := by
  rw [val_main_v17_apply, val_main_v16_apply, val_main_v15_apply, val_main_v14_apply]
  have e : idx_main_v14 (idx_main_v15 (ix3 b N m)) = ix2 b N :=
    funext fun a => Fin.ext (by match a with | ⟨0, _⟩ => rfl | ⟨1, _⟩ => rfl)
  rw [e]
  rfl

/-- The row sum of the exponentials (from the zero pattern, which is 0). -/
theorem ref_sum (b : Fin 8) (N : Fin 4096) :
    val_main_v18 (F := Ideal) X Wf Wg (ix2 b N) = ∑ m : Fin 1024, val_main_v17 (F := Ideal) X Wf Wg (ix3 b N m) := by
  rw [val_main_v18_apply, val_main_cst_3_apply]
  show Ideal.ofBits .f32 0x00000000#32 + _ = _
  rw [Ideal.ofBits_zero_f32, zero_add]
  refine Finset.sum_congr rfl fun k _ => ?_
  exact congrArg (val_main_v17 (F := Ideal) X Wf Wg) (funext fun a => Fin.ext (by
    match a with | ⟨0, _⟩ => rfl | ⟨1, _⟩ => rfl | ⟨2, _⟩ => rfl))

/-- The attention weight: an exponential over its row's sum. -/
theorem ref_attn (b : Fin 8) (N : Fin 4096) (m : Fin 1024) :
    val_main_v21 (F := Ideal) X Wf Wg (ix3 b N m)
      = Ideal.div (val_main_v17 (F := Ideal) X Wf Wg (ix3 b N m)) (val_main_v18 (F := Ideal) X Wf Wg (ix2 b N)) := by
  rw [val_main_v21_apply, val_main_v20_apply, val_main_v19_apply]
  have e : idx_main_v19 (idx_main_v20 (ix3 b N m)) = ix2 b N :=
    funext fun a => Fin.ext (by match a with | ⟨0, _⟩ => rfl | ⟨1, _⟩ => rfl)
  rw [e]
  rfl

/-- The attended values: the weights of query N against the value rows. -/
theorem ref_y (b : Fin 8) (N : Fin 4096) (e : Fin 256) :
    val_main_v22 (F := Ideal) X Wf Wg Wh (ix3 b N e)
      = ∑ m : Fin 1024, val_main_v21 (F := Ideal) X Wf Wg (ix3 b N m) * val_main_v9 (F := Ideal) X Wh (ix3 b m e) := by
  rw [val_main_v22_apply]
  refine Finset.sum_congr rfl fun k _ => ?_
  have e1 : lidx_main_v22 (ix3 b N e) k = ix3 b N k :=
    funext fun a => Fin.ext (by match a with | ⟨0, _⟩ => rfl | ⟨1, _⟩ => rfl | ⟨2, _⟩ => rfl)
  have e2 : ridx_main_v22 (ix3 b N e) k = ix3 b k e :=
    funext fun a => Fin.ext (by match a with | ⟨0, _⟩ => rfl | ⟨1, _⟩ => rfl | ⟨2, _⟩ => rfl)
  rw [e1, e2]

/-- The output projection at pixel (h,w): the attended values of position 64·h + w against a column of wo. -/
theorem ref_out (b : Fin 8) (h w : Fin 64) (c : Fin 512) :
    val_main_v24 (F := Ideal) X Wf Wg Wh Wo (ix4 b h w c)
      = ∑ e : Fin 256, val_main_v22 (F := Ideal) X Wf Wg Wh (ix3 b (⟨64 * h.val + w.val, by omega⟩ : Fin 4096) e) * Wo (ix2 e c) := by
  rw [val_main_v24_apply]
  refine Finset.sum_congr rfl fun k _ => ?_
  rw [val_main_v23_apply]
  have e1 : idx_main_v23 (lidx_main_v24 (ix4 b h w c) k) = ix3 b (⟨64 * h.val + w.val, by omega⟩ : Fin 4096) k :=
    funext fun a => Fin.ext (by
      match a with
      | ⟨0, _⟩ => show (((b.val * 64 + h.val) * 64 + w.val) * 256 + k.val) / 1048576 = b.val; omega
      | ⟨1, _⟩ => show (((b.val * 64 + h.val) * 64 + w.val) * 256 + k.val) / 256 % 4096 = 64 * h.val + w.val; omega
      | ⟨2, _⟩ => show (((b.val * 64 + h.val) * 64 + w.val) * 256 + k.val) % 256 = k.val; omega)
  have e2 : ridx_main_v24 (ix4 b h w c) k = ix2 k c :=
    funext fun a => Fin.ext (by match a with | ⟨0, _⟩ => rfl | ⟨1, _⟩ => rfl)
  rw [e1, e2]

end Cert.ReferenceIdeal.Attn

end
-- ==== Proof.AttnTile.lean ====
/-
  The second kernel body at one grid point (batch b, query tile t): 1024 queries, positions
  N = 1024·t + n of the batch, against all 1024 keys and values of the batch, which stay resident.
  The body's value is cut into its stages — queries, scores, row maximum, exponentials, row sum,
  weights, attended values, output projection — and each stage, read at one entry, is the reference's
  stage at the corresponding entry of the whole arrays, given that the loaded blocks are the
  corresponding parts of the image, the weights, and the reference's key and value arrays.
-/
import proofs.«125331_j85822036508890_2_alg».proof.Proof.Dots
import proofs.«125331_j85822036508890_2_alg».proof.Proof.RefStages
import proofs.«125331_j85822036508890_2_alg».proof.Proof.Gen.KernelIdeal.Skeleton
import Idealize.ShloMosaic.Lib.Pipeline.Value

noncomputable section

namespace Cert.KernelIdeal.Attn

open Cert.KernelIdeal Cert.KernelIdeal.Gen Idealize.ShloMosaic Idealize.ShloMosaic.ValueIdx

/-! ## The body's value, cut into stages -/

/-- The tile's queries: the image rows of the tile, flattened to 1024 positions, against wf. -/
def qTile (x0 : FVec Ideal S1x16x64x512 .f32) (x4 : FVec Ideal S512x64 .f32) : FVec Ideal S1024x64 .bf16 :=
  truncf .bf16 (matmul dot_S1024x512_S512x64_S1024x64_1_0_0_1_n_n none
    (truncf .bf16 (shapeCast S1024x512 (shapeCast S16x64x512 x0 shapeCasts_S1x16x64x512_S16x64x512) shapeCasts_S16x64x512_S1024x512) bitsLt_bf16_f32)
    (truncf .bf16 x4 bitsLt_bf16_f32) (constant S1024x64 .f32 0x00000000#32)) bitsLt_bf16_f32

/-- The tile's scores against the batch's keys. -/
def sTile (x0 : FVec Ideal S1x16x64x512 .f32) (x4 : FVec Ideal S512x64 .f32) (x8 : FVec Ideal S1x1024x64 .bf16) : FVec Ideal S1024x1024 .f32 :=
  matmul dot_S1024x64_S1024x64_S1024x1024_1_1_0_0_n_n none (qTile x0 x4) (shapeCast S1024x64 x8 shapeCasts_S1x1024x64_S1024x64)
    (constant S1024x1024 .f32 0x00000000#32)

/-- Each row's maximum, repeated along the row. -/
def rowMax (s : FVec Ideal S1024x1024 .f32) : FVec Ideal S1024x1024 .f32 :=
  broadcastTo S1024x1024 (shapeCast S1024x1 (multiReduction .maximumf [1] S1024 s 0xFF800000#32 reduces_S1024x1024_S1024 (.inl rfl) rfl)
    shapeCasts_S1024_S1024x1) broadcasts_S1024x1_S1024x1024

/-- The exponentials of the scores less their row's maximum. -/
def expTile (s : FVec Ideal S1024x1024 .f32) : FVec Ideal S1024x1024 .f32 := exp (subf s (rowMax s))

/-- Each row's sum, repeated along the row. -/
def rowSum (e : FVec Ideal S1024x1024 .f32) : FVec Ideal S1024x1024 .f32 :=
  broadcastTo S1024x1024 (shapeCast S1024x1 (multiReduction .add [1] S1024 e 0x00000000#32 reduces_S1024x1024_S1024 (.inl rfl) rfl)
    shapeCasts_S1024_S1024x1) broadcasts_S1024x1_S1024x1024

/-- The attention weights. -/
def wTile (e : FVec Ideal S1024x1024 .f32) : FVec Ideal S1024x1024 .bf16 := truncf .bf16 (divf e (rowSum e)) bitsLt_bf16_f32

/-- The attended values. -/
def yTile (a : FVec Ideal S1024x1024 .bf16) (x21 : FVec Ideal S1x1024x256 .bf16) : FVec Ideal S1024x256 .bf16 :=
  truncf .bf16 (matmul dot_S1024x1024_S1024x256_S1024x256_1_0_0_1_n_n none a (shapeCast S1024x256 x21 shapeCasts_S1x1024x256_S1024x256)
    (constant S1024x256 .f32 0x00000000#32)) bitsLt_bf16_f32

/-- The output projection. -/
def oTile (y : FVec Ideal S1024x256 .bf16) (x25 : FVec Ideal S256x512 .f32) : FVec Ideal S1024x512 .f32 :=
  matmul dot_S1024x256_S256x512_S1024x512_1_0_0_1_n_n none y (truncf .bf16 x25 bitsLt_bf16_f32) (constant S1024x512 .f32 0x00000000#32)

/-- The stored value is the output projection of the stages, viewed as [1,16,64,512]. -/
theorem k1_pay1_eq (x0 : FVec Ideal S1x16x64x512 .f32) (x4 : FVec Ideal S512x64 .f32) (x8 : FVec Ideal S1x1024x64 .bf16)
    (x21 : FVec Ideal S1x1024x256 .bf16) (x25 : FVec Ideal S256x512 .f32) :
    k1_pay1 (F := Ideal) x0 x4 x8 x21 x25
      = shapeCast S1x16x64x512 (shapeCast S16x64x512 (oTile (yTile (wTile (expTile (sTile x0 x4 x8))) x21) x25)
          shapeCasts_S1024x512_S16x64x512) shapeCasts_S16x64x512_S1x16x64x512 := rfl

/-! ## The two row reductions, read at an entry -/

theorem rowMax_apply (s : FVec Ideal S1024x1024 .f32) (n m : Fin 1024) :
    rowMax s (ix2 n m) = (Finset.univ : Finset (Fin 1024)).fold max (Ideal.ofBits .f32 0xFF800000#32) (fun m' : Fin 1024 => s (ix2 n m')) := by
  unfold rowMax
  refine (broadcastTo_apply _ _ (ix2 n m) (ix2 n (0 : Fin 1)) (fun a => by match a with | ⟨0, _⟩ => rfl | ⟨1, _⟩ => rfl)).trans ?_
  refine (shapeCast_apply _ _ _ (ix1 n) ?_).trans ?_
  · rw [Shape.rowMajor_val_one, Shape.rowMajor_val_two]
    show n.val = n.val * 1 + 0
    omega
  refine (Ideal.multiReduction_maximumf_single _ _ reduces_S1024x1024_S1024 _ _ (ix1 n)).trans ?_
  have hf : (s ∘ reduces_S1024x1024_S1024.lift (ix1 n)) = fun m' : Fin 1024 => s (ix2 n m') :=
    funext fun m' => congrArg s (funext fun a => Fin.ext (by match a with | ⟨0, _⟩ => rfl | ⟨1, _⟩ => rfl))
  rw [hf]
  rfl

theorem rowSum_apply (e : FVec Ideal S1024x1024 .f32) (n m : Fin 1024) :
    rowSum e (ix2 n m) = ∑ m' : Fin 1024, e (ix2 n m') := by
  unfold rowSum
  refine (broadcastTo_apply _ _ (ix2 n m) (ix2 n (0 : Fin 1)) (fun a => by match a with | ⟨0, _⟩ => rfl | ⟨1, _⟩ => rfl)).trans ?_
  refine (shapeCast_apply _ _ _ (ix1 n) ?_).trans ?_
  · rw [Shape.rowMajor_val_one, Shape.rowMajor_val_two]
    show n.val = n.val * 1 + 0
    omega
  refine (Ideal.multiReduction_add_single _ _ reduces_S1024x1024_S1024 _ _ (ix1 n)).trans ?_
  show ∑ m' : Fin 1024, _ = _
  refine Finset.sum_congr rfl fun m' _ => ?_
  exact congrArg e (funext fun a => Fin.ext (by match a with | ⟨0, _⟩ => rfl | ⟨1, _⟩ => rfl))

/-! ## Each stage is the reference's, at the tile's positions -/

section Tile

variable (X : S8x64x64x512.Idx → Ideal .f32) (Wf Wg : S512x64.Idx → Ideal .f32) (Wh : S512x256.Idx → Ideal .f32)
  (Wo : S256x512.Idx → Ideal .f32) (b : Fin 8) (t : Fin 4)
  (x0 : FVec Ideal S1x16x64x512 .f32) (x4 : FVec Ideal S512x64 .f32) (x8 : FVec Ideal S1x1024x64 .bf16)
  (x21 : FVec Ideal S1x1024x256 .bf16) (x25 : FVec Ideal S256x512 .f32)
  (hx : ∀ (r : Fin 16) (w : Fin 64) (c : Fin 512),
    x0 (ix4 (0 : Fin 1) r w c) = X (ix4 b (⟨16 * t.val + r.val, by omega⟩ : Fin 64) w c))
  (hwf : ∀ (k : Fin 512) (d : Fin 64), x4 (ix2 k d) = Wf (ix2 k d))
  (hg : ∀ (m : Fin 1024) (d : Fin 64), x8 (ix3 (0 : Fin 1) m d) = Cert.ReferenceIdeal.Read.val_main_v7 (F := Ideal) X Wg (ix3 b m d))
  (hh : ∀ (m : Fin 1024) (e : Fin 256), x21 (ix3 (0 : Fin 1) m e) = Cert.ReferenceIdeal.Read.val_main_v9 (F := Ideal) X Wh (ix3 b m e))
  (hwo : ∀ (e : Fin 256) (c : Fin 512), x25 (ix2 e c) = Wo (ix2 e c))

/-- Position n of the tile is position 1024·t + n of the batch. -/
abbrev pos (t : Fin 4) (n : Fin 1024) : Fin 4096 := ⟨1024 * t.val + n.val, by omega⟩

include hx hwf in
theorem q_entry (n : Fin 1024) (d : Fin 64) :
    qTile x0 x4 (ix2 n d) = Cert.ReferenceIdeal.Read.val_main_v1 (F := Ideal) X Wf (ix3 b (pos t n) d) := by
  unfold qTile
  refine (truncf_apply (ψ := .bf16) _ bitsLt_bf16_f32 _).trans ?_
  refine (mm_512_64 _ _ n d).trans ?_
  refine Eq.trans ?_ (Cert.ReferenceIdeal.Attn.ref_f X Wf b (pos t n) d).symm
  refine Finset.sum_congr rfl fun k _ => ?_
  refine congrArg₂ (· * ·) ?_ (hwf k d)
  refine (truncf_apply (ψ := .bf16) _ bitsLt_bf16_f32 _).trans ?_
  refine (shapeCast_apply _ _ _ (ix3 (⟨n.val / 64, by omega⟩ : Fin 16) (⟨n.val % 64, by omega⟩ : Fin 64) k) ?_).trans ?_
  · rw [Shape.rowMajor_val_three, Shape.rowMajor_val_two]
    show (n.val / 64 * 64 + n.val % 64) * 512 + k.val = n.val * 512 + k.val
    omega
  refine (shapeCast_apply _ _ _ (ix4 (0 : Fin 1) (⟨n.val / 64, by omega⟩ : Fin 16) (⟨n.val % 64, by omega⟩ : Fin 64) k) ?_).trans ?_
  · rw [Shape.rowMajor_val_four, Shape.rowMajor_val_three]
    show ((0 * 16 + n.val / 64) * 64 + n.val % 64) * 512 + k.val = (n.val / 64 * 64 + n.val % 64) * 512 + k.val
    omega
  refine (hx _ _ _).trans ?_
  refine congrArg X (funext fun a => Fin.ext ?_)
  match a with
  | ⟨0, _⟩ => rfl
  | ⟨1, _⟩ => show 16 * t.val + n.val / 64 = (1024 * t.val + n.val) / 64; omega
  | ⟨2, _⟩ => show n.val % 64 = (1024 * t.val + n.val) % 64; omega
  | ⟨3, _⟩ => rfl

include hx hwf hg in
theorem s_entry (n m : Fin 1024) :
    sTile x0 x4 x8 (ix2 n m) = Cert.ReferenceIdeal.Read.val_main_v10 (F := Ideal) X Wf Wg (ix3 b (pos t n) m) := by
  unfold sTile
  refine (mm_scores _ _ n m).trans ?_
  refine Eq.trans ?_ (Cert.ReferenceIdeal.Attn.ref_s X Wf Wg b (pos t n) m).symm
  refine Finset.sum_congr rfl fun k _ => ?_
  refine congrArg₂ (· * ·) (q_entry X Wf b t x0 x4 hx hwf n k) ?_
  refine (shapeCast_apply _ _ _ (ix3 (0 : Fin 1) m k) ?_).trans (hg m k)
  rw [Shape.rowMajor_val_three, Shape.rowMajor_val_two]
  show (0 * 1024 + m.val) * 64 + k.val = m.val * 64 + k.val
  omega

include hx hwf hg in
theorem e_entry (n m : Fin 1024) :
    expTile (sTile x0 x4 x8) (ix2 n m) = Cert.ReferenceIdeal.Read.val_main_v17 (F := Ideal) X Wf Wg (ix3 b (pos t n) m) := by
  refine Eq.trans ?_ (Cert.ReferenceIdeal.Attn.ref_exp X Wf Wg b (pos t n) m).symm
  show Ideal.exp (sTile x0 x4 x8 (ix2 n m) - rowMax (sTile x0 x4 x8) (ix2 n m)) = _
  refine congrArg Ideal.exp (congrArg₂ (· - ·) (s_entry X Wf Wg b t x0 x4 x8 hx hwf hg n m) ?_)
  refine (rowMax_apply _ n m).trans ?_
  refine Eq.trans ?_ (Cert.ReferenceIdeal.Attn.ref_max X Wf Wg b (pos t n)).symm
  exact congrArg (fun f : Fin 1024 → EReal => (Finset.univ : Finset (Fin 1024)).fold max (Ideal.ofBits .f32 0xFF800000#32) f)
    (funext fun m' => s_entry X Wf Wg b t x0 x4 x8 hx hwf hg n m')

include hx hwf hg in
theorem w_entry (n m : Fin 1024) :
    wTile (expTile (sTile x0 x4 x8)) (ix2 n m) = Cert.ReferenceIdeal.Read.val_main_v21 (F := Ideal) X Wf Wg (ix3 b (pos t n) m) := by
  refine Eq.trans ?_ (Cert.ReferenceIdeal.Attn.ref_attn X Wf Wg b (pos t n) m).symm
  show Ideal.div (expTile (sTile x0 x4 x8) (ix2 n m)) (rowSum (expTile (sTile x0 x4 x8)) (ix2 n m)) = _
  refine congrArg₂ Ideal.div (e_entry X Wf Wg b t x0 x4 x8 hx hwf hg n m) ?_
  refine (rowSum_apply _ n m).trans ?_
  refine Eq.trans ?_ (Cert.ReferenceIdeal.Attn.ref_sum X Wf Wg b (pos t n)).symm
  exact Finset.sum_congr rfl fun m' _ => e_entry X Wf Wg b t x0 x4 x8 hx hwf hg n m'

include hx hwf hg hh in
theorem y_entry (n : Fin 1024) (e : Fin 256) :
    yTile (wTile (expTile (sTile x0 x4 x8))) x21 (ix2 n e) = Cert.ReferenceIdeal.Read.val_main_v22 (F := Ideal) X Wf Wg Wh (ix3 b (pos t n) e) := by
  unfold yTile
  refine (truncf_apply (ψ := .bf16) _ bitsLt_bf16_f32 _).trans ?_
  refine (mm_1024_256 _ _ n e).trans ?_
  refine Eq.trans ?_ (Cert.ReferenceIdeal.Attn.ref_y X Wf Wg Wh b (pos t n) e).symm
  refine Finset.sum_congr rfl fun m _ => ?_
  refine congrArg₂ (· * ·) (w_entry X Wf Wg b t x0 x4 x8 hx hwf hg n m) ?_
  refine (shapeCast_apply _ _ _ (ix3 (0 : Fin 1) m e) ?_).trans (hh m e)
  rw [Shape.rowMajor_val_three, Shape.rowMajor_val_two]
  show (0 * 1024 + m.val) * 256 + e.val = m.val * 256 + e.val
  omega

include hx hwf hg hh hwo in
/-- The stored block at row r, column w of the tile, channel c: the reference's result at image row 16·t + r. -/
theorem attn_entry (r : Fin 16) (w : Fin 64) (c : Fin 512) :
    k1_pay1 (F := Ideal) x0 x4 x8 x21 x25 (ix4 (0 : Fin 1) r w c)
      = Cert.ReferenceIdeal.Read.val_main_v24 (F := Ideal) X Wf Wg Wh Wo (ix4 b (⟨16 * t.val + r.val, by omega⟩ : Fin 64) w c) := by
  rw [k1_pay1_eq]
  refine (shapeCast_apply _ _ _ (ix3 r w c) ?_).trans ?_
  · rw [Shape.rowMajor_val_three, Shape.rowMajor_val_four]
    show (r.val * 64 + w.val) * 512 + c.val = ((0 * 16 + r.val) * 64 + w.val) * 512 + c.val
    omega
  refine (shapeCast_apply _ _ _ (ix2 (⟨64 * r.val + w.val, by omega⟩ : Fin 1024) c) ?_).trans ?_
  · rw [Shape.rowMajor_val_two, Shape.rowMajor_val_three]
    show (64 * r.val + w.val) * 512 + c.val = (r.val * 64 + w.val) * 512 + c.val
    omega
  unfold oTile
  refine (mm_256_512 _ _ _ c).trans ?_
  refine Eq.trans ?_ (Cert.ReferenceIdeal.Attn.ref_out X Wf Wg Wh Wo b _ w c).symm
  refine Finset.sum_congr rfl fun e _ => ?_
  refine congrArg₂ (· * ·) ?_ (hwo e c)
  refine (y_entry X Wf Wg Wh b t x0 x4 x8 x21 hx hwf hg hh _ e).trans ?_
  refine congrArg (Cert.ReferenceIdeal.Read.val_main_v22 (F := Ideal) X Wf Wg Wh) (funext fun a => Fin.ext ?_)
  match a with
  | ⟨0, _⟩ => rfl
  | ⟨1, _⟩ => show 1024 * t.val + (64 * r.val + w.val) = 64 * (16 * t.val + r.val) + w.val; omega
  | ⟨2, _⟩ => rfl

end Tile

end Cert.KernelIdeal.Attn

end
-- ==== Proof.PoolKernel.lean ====
/-
  The 2×2 average pool as the first kernel body computes it, read at one entry: the pooled map at row
  n = 32·p + q and channel c is the sum over the two rows 2p, 2p+1 and the two columns 2q, 2q+1 of the
  loaded image (columns are added first, then rows), times the constant one quarter.
-/
import proofs.«125331_j85822036508890_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Attn

open Cert.KernelIdeal Cert.KernelIdeal.Gen Idealize.ShloMosaic Idealize.ShloMosaic.ValueIdx

theorem pool_payload (xb : Vec Ideal S1x64x64x512 .f32) (p q : Fin 32) (c : Fin 512) (n : Fin 1024)
    (hn : n.val = p.val * 32 + q.val) :
    k0_pay1 xb (ix2 n c)
      = (∑ a : Fin 2, ∑ e : Fin 2, xb (ix4 (0 : Fin 1) (⟨2 * p.val + a.val, by omega⟩ : Fin 64)
            (⟨2 * q.val + e.val, by omega⟩ : Fin 64) c)) * Ideal.ofBits .f32 0x3E800000#32 := by
  unfold k0_pay1
  dsimp only
  refine (truncf_apply (ψ := .bf16) _ bitsLt_bf16_f32 _).trans ?_
  refine (shapeCast_apply _ _ (ix2 n c) (ix3 p q c) ?_).trans ?_
  · rw [Shape.rowMajor_val_three, Shape.rowMajor_val_two]
    show (p.val * 32 + q.val) * 512 + c.val = n.val * 512 + c.val
    omega
  refine (mulf_apply _ _ _).trans ?_
  refine congrArg₂ (· * ·) ?_ rfl
  refine (Ideal.multiReduction_add_single _ _ reduces_S32x2x32x512_S32x32x512 _ _ (ix3 p q c)).trans ?_
  show ∑ a : Fin 2, _ = _
  refine Finset.sum_congr rfl fun a _ => ?_
  refine (shapeCast_apply _ _ _ (ix3 (⟨2 * p.val + a.val, by omega⟩ : Fin 64) q c) ?_).trans ?_
  · rw [Shape.rowMajor_val_three, Shape.rowMajor_val_four]
    show ((2 * p.val + a.val) * 32 + q.val) * 512 + c.val = ((p.val * 2 + a.val) * 32 + q.val) * 512 + c.val
    omega
  refine (Ideal.multiReduction_add_single _ _ reduces_S64x32x2x512_S64x32x512 _ _ (ix3 (⟨2 * p.val + a.val, by omega⟩ : Fin 64) q c)).trans ?_
  show ∑ e : Fin 2, _ = _
  refine Finset.sum_congr rfl fun e _ => ?_
  refine (shapeCast_apply _ _ _ (ix3 (⟨2 * p.val + a.val, by omega⟩ : Fin 64) (⟨2 * q.val + e.val, by omega⟩ : Fin 64) c) ?_).trans ?_
  · rw [Shape.rowMajor_val_three, Shape.rowMajor_val_four]
    show ((2 * p.val + a.val) * 64 + (2 * q.val + e.val)) * 512 + c.val = (((2 * p.val + a.val) * 32 + q.val) * 2 + e.val) * 512 + c.val
    omega
  refine shapeCast_apply _ _ _ (ix4 (0 : Fin 1) (⟨2 * p.val + a.val, by omega⟩ : Fin 64) (⟨2 * q.val + e.val, by omega⟩ : Fin 64) c) ?_
  rw [Shape.rowMajor_val_four, Shape.rowMajor_val_three]
  show ((0 * 64 + (2 * p.val + a.val)) * 64 + (2 * q.val + e.val)) * 512 + c.val = ((2 * p.val + a.val) * 64 + (2 * q.val + e.val)) * 512 + c.val
  omega

end Cert.KernelIdeal.Attn

end
-- ==== Proof.PoolRef.lean ====
/-
  The 2×2 average pool as the reference computes it, read at one entry. The host views the image as
  [8,32,2,32,2,512], sums over the two pair axes at once and divides by four. The entries that reduce to
  (b,p,q,c) are exactly the four (b,p,a,q,e,c) with a,e ∈ {0,1}, which sit at rows 2p+a and columns 2q+e
  of the image; and dividing an extended real by 4 is multiplying it by one quarter, at the infinities too.
-/
import proofs.«125331_j85822036508890_2_alg».proof.Proof.Gen.ReferenceIdeal.Read
import Idealize.ShloMosaic.Lib.ValueIdxRank6

noncomputable section

namespace Cert.ReferenceIdeal.Attn

open Cert.ReferenceIdeal Cert.ReferenceIdeal.Read Cert.ReferenceIdeal.Facts₀ Idealize.ShloMosaic Idealize.ShloMosaic.ValueIdx

/-- The pattern of 4.0 denotes the real 4. -/
theorem ofBits_four : Ideal.ofBits .f32 0x40800000#32 = ((4 : ℝ) : EReal) := by
  simp [Ideal.ofBits, Ideal.ieee, -EReal.coe_mul]; norm_num

/-- The pattern of 0.25 denotes the real 1/4. -/
theorem ofBits_quarter : Ideal.ofBits .f32 0x3E800000#32 = ((1 / 4 : ℝ) : EReal) := by
  simp [Ideal.ofBits, Ideal.ieee, -EReal.coe_mul]; norm_num

/-- Dividing by the pattern of 4.0 is multiplying by the pattern of 0.25, on every extended real. -/
theorem div_four (s : EReal) : Ideal.div s (Ideal.ofBits .f32 0x40800000#32) = s * Ideal.ofBits .f32 0x3E800000#32 := by
  rw [ofBits_four, ofBits_quarter]
  exact Ideal.div_coe (by norm_num) s

/-- The image viewed with its pair axes split, at (b,p,a,q,e,c), is the image at row 2p+a, column 2q+e. -/
theorem split_apply (X : (⟨S8x64x64x512, .f32⟩ : BufTy).Contents (Elt Ideal)) (b : Fin 8) (p q : Fin 32) (a e : Fin 2) (c : Fin 512) :
    val_main_v2 (F := Ideal) X (ix6 b p a q e c)
      = X (ix4 b (⟨2 * p.val + a.val, by omega⟩ : Fin 64) (⟨2 * q.val + e.val, by omega⟩ : Fin 64) c) := by
  unfold val_main_v2
  refine shapeCast_apply _ _ _ _ ?_
  rw [Shape.rowMajor_val_four, Shape.rowMajor_val_six]
  show ((b.val * 64 + (2 * p.val + a.val)) * 64 + (2 * q.val + e.val)) * 512 + c.val
    = ((((b.val * 32 + p.val) * 2 + a.val) * 32 + q.val) * 2 + e.val) * 512 + c.val
  omega

/-- The host's sum over both pair axes, at (b,p,q,c): the four entries of the 2×2 cell. -/
theorem pairsum_apply (X : (⟨S8x64x64x512, .f32⟩ : BufTy).Contents (Elt Ideal)) (b : Fin 8) (p q : Fin 32) (c : Fin 512) :
    val_main_v3 (F := Ideal) X (ix4 b p q c)
      = ∑ a : Fin 2, ∑ e : Fin 2, X (ix4 b (⟨2 * p.val + a.val, by omega⟩ : Fin 64) (⟨2 * q.val + e.val, by omega⟩ : Fin 64) c) := by
  unfold val_main_v3
  simp only [Host.reduceAdd, Ideal.hostReduceAdd_def]
  unfold Ideal.hostReduceAdd
  show val_main_cst (F := Ideal) _ + _ = _
  rw [val_main_cst_apply]
  show Ideal.ofBits .f32 0x00000000#32 + _ = _
  rw [Ideal.ofBits_zero_f32, zero_add, ← Fintype.sum_prod_type']
  refine Finset.sum_nbij' (fun i6 => ((⟨(i6 2).val, (i6 2).isLt⟩ : Fin 2), (⟨(i6 4).val, (i6 4).isLt⟩ : Fin 2)))
    (fun pr => ix6 b p pr.1 q pr.2 c) (fun _ _ => Finset.mem_univ _) ?_ ?_ ?_ ?_
  · intro pr _
    refine Finset.mem_filter.mpr ⟨Finset.mem_univ _, funext fun d => Fin.ext ?_⟩
    match d with
    | ⟨0, _⟩ => rfl
    | ⟨1, _⟩ => rfl
    | ⟨2, _⟩ => rfl
    | ⟨3, _⟩ => rfl
  · intro i6 hi
    have hd := (Finset.mem_filter.mp hi).2
    funext g
    apply Fin.ext
    match g with
    | ⟨0, _⟩ => exact (congrArg (fun z : S8x32x32x512.Idx => (z 0).val) hd).symm
    | ⟨1, _⟩ => exact (congrArg (fun z : S8x32x32x512.Idx => (z 1).val) hd).symm
    | ⟨2, _⟩ => rfl
    | ⟨3, _⟩ => exact (congrArg (fun z : S8x32x32x512.Idx => (z 2).val) hd).symm
    | ⟨4, _⟩ => rfl
    | ⟨5, _⟩ => exact (congrArg (fun z : S8x32x32x512.Idx => (z 3).val) hd).symm
  · intro pr _
    exact Prod.ext (Fin.ext rfl) (Fin.ext rfl)
  · intro i6 hi
    have hd := (Finset.mem_filter.mp hi).2
    have e6 : i6 = ix6 b p (⟨(i6 2).val, (i6 2).isLt⟩ : Fin 2) q (⟨(i6 4).val, (i6 4).isLt⟩ : Fin 2) c := by
      funext g
      apply Fin.ext
      match g with
      | ⟨0, _⟩ => exact (congrArg (fun z : S8x32x32x512.Idx => (z 0).val) hd)
      | ⟨1, _⟩ => exact (congrArg (fun z : S8x32x32x512.Idx => (z 1).val) hd)
      | ⟨2, _⟩ => rfl
      | ⟨3, _⟩ => exact (congrArg (fun z : S8x32x32x512.Idx => (z 2).val) hd)
      | ⟨4, _⟩ => rfl
      | ⟨5, _⟩ => exact (congrArg (fun z : S8x32x32x512.Idx => (z 3).val) hd)
    rw [e6]
    exact split_apply X b p q _ _ c

/-- The reference's pooled map at (b,p,q,c): the cell's sum times one quarter. -/
theorem pool_ref (X : (⟨S8x64x64x512, .f32⟩ : BufTy).Contents (Elt Ideal)) (b : Fin 8) (p q : Fin 32) (c : Fin 512) :
    val_main_v5 (F := Ideal) X (ix4 b p q c)
      = (∑ a : Fin 2, ∑ e : Fin 2, X (ix4 b (⟨2 * p.val + a.val, by omega⟩ : Fin 64) (⟨2 * q.val + e.val, by omega⟩ : Fin 64) c))
          * Ideal.ofBits .f32 0x3E800000#32 := by
  rw [val_main_v5_apply, val_main_v4_apply, val_main_cst_0_apply, pairsum_apply]
  exact div_four _

end Cert.ReferenceIdeal.Attn

end
-- ==== Proof.KeysValues.lean ====
/-
  The first kernel body at one grid point (one batch b): from the image block of batch b and the whole
  weight matrices it stores the keys and the values of that batch. Entry (n,d) of the stored key block is
  the pooled map's row n against column d of wg — the reference's key array at (b,n,d) — and likewise
  for the values with wh. The two pooled maps agree because both are the 2×2 cell's sum times one quarter.
-/
import proofs.«125331_j85822036508890_2_alg».proof.Proof.PoolKernel
import proofs.«125331_j85822036508890_2_alg».proof.Proof.PoolRef
import proofs.«125331_j85822036508890_2_alg».proof.Proof.Dots
import proofs.«125331_j85822036508890_2_alg».proof.Proof.RefStages

noncomputable section

namespace Cert.KernelIdeal.Attn

open Cert.KernelIdeal Cert.KernelIdeal.Gen Idealize.ShloMosaic Idealize.ShloMosaic.ValueIdx

theorem keys_entry (X : S8x64x64x512.Idx → Ideal .f32) (Wg : S512x64.Idx → Ideal .f32) (b : Fin 8)
    (xb : Vec Ideal S1x64x64x512 .f32) (wb : Vec Ideal S512x64 .f32)
    (hx : ∀ (h w : Fin 64) (c : Fin 512), xb (ix4 (0 : Fin 1) h w c) = X (ix4 b h w c))
    (hw : ∀ (k : Fin 512) (d : Fin 64), wb (ix2 k d) = Wg (ix2 k d))
    (n : Fin 1024) (d : Fin 64) :
    k0_pay2 xb wb (ix3 (0 : Fin 1) n d) = Cert.ReferenceIdeal.Read.val_main_v7 (F := Ideal) X Wg (ix3 b n d) := by
  unfold k0_pay2
  refine (shapeCast_apply _ _ _ (ix2 n d) ?_).trans ?_
  · rw [Shape.rowMajor_val_two, Shape.rowMajor_val_three]
    show n.val * 64 + d.val = (0 * 1024 + n.val) * 64 + d.val
    omega
  refine (truncf_apply (ψ := .bf16) _ bitsLt_bf16_f32 _).trans ?_
  refine (mm_512_64 _ _ n d).trans ?_
  refine Eq.trans ?_ (Cert.ReferenceIdeal.Attn.ref_g X Wg b n d).symm
  refine Finset.sum_congr rfl fun k _ => ?_
  refine congrArg₂ (· * ·) ?_ (hw k d)
  refine (pool_payload xb (⟨n.val / 32, by omega⟩ : Fin 32) (⟨n.val % 32, by omega⟩ : Fin 32) k n
    (by show n.val = n.val / 32 * 32 + n.val % 32; omega)).trans ?_
  refine Eq.trans ?_ (Cert.ReferenceIdeal.Attn.pool_ref X b _ _ k).symm
  refine congrArg (· * Ideal.ofBits .f32 0x3E800000#32) ?_
  exact Finset.sum_congr rfl fun a _ => Finset.sum_congr rfl fun e _ => hx _ _ _

theorem values_entry (X : S8x64x64x512.Idx → Ideal .f32) (Wh : S512x256.Idx → Ideal .f32) (b : Fin 8)
    (xb : Vec Ideal S1x64x64x512 .f32) (wb : Vec Ideal S512x256 .f32)
    (hx : ∀ (h w : Fin 64) (c : Fin 512), xb (ix4 (0 : Fin 1) h w c) = X (ix4 b h w c))
    (hw : ∀ (k : Fin 512) (e : Fin 256), wb (ix2 k e) = Wh (ix2 k e))
    (n : Fin 1024) (e : Fin 256) :
    k0_pay3 xb wb (ix3 (0 : Fin 1) n e) = Cert.ReferenceIdeal.Read.val_main_v9 (F := Ideal) X Wh (ix3 b n e) := by
  unfold k0_pay3
  refine (shapeCast_apply _ _ _ (ix2 n e) ?_).trans ?_
  · rw [Shape.rowMajor_val_two, Shape.rowMajor_val_three]
    show n.val * 256 + e.val = (0 * 1024 + n.val) * 256 + e.val
    omega
  refine (truncf_apply (ψ := .bf16) _ bitsLt_bf16_f32 _).trans ?_
  refine (mm_512_256 _ _ n e).trans ?_
  refine Eq.trans ?_ (Cert.ReferenceIdeal.Attn.ref_h X Wh b n e).symm
  refine Finset.sum_congr rfl fun k _ => ?_
  refine congrArg₂ (· * ·) ?_ (hw k e)
  refine (pool_payload xb (⟨n.val / 32, by omega⟩ : Fin 32) (⟨n.val % 32, by omega⟩ : Fin 32) k n
    (by show n.val = n.val / 32 * 32 + n.val % 32; omega)).trans ?_
  refine Eq.trans ?_ (Cert.ReferenceIdeal.Attn.pool_ref X b _ _ k).symm
  refine congrArg (· * Ideal.ofBits .f32 0x3E800000#32) ?_
  exact Finset.sum_congr rfl fun a _ => Finset.sum_congr rfl fun e' _ => hx _ _ _

end Cert.KernelIdeal.Attn

end
-- ==== Proof.KeyValueArrays.lean ====
/-
  From blocks to arrays, first region. Grid point t is batch t: it reads image block t and the whole of
  wg and wh, and flushes block t of the key array and of the value array. The blocks tile both arrays
  (index i lies in the block of batch i₀), so after the region the key array is the reference's key
  array of the region-entry image and wg, and the value array the reference's value array.
-/
import proofs.«125331_j85822036508890_2_alg».proof.Proof.Gen.KernelIdeal.Frame
import proofs.«125331_j85822036508890_2_alg».proof.Proof.KeysValues

set_option maxRecDepth 16384

noncomputable section

namespace Cert.KernelIdeal.Attn

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

variable (V : (c : Dev nD) → (b : Ref sig .tc) → Buf (Elt Ideal) ((c : Thread nD τ).loc b))

/-- The printed index maps of the first pallas_call, decided over its eight grid points. -/
theorem idx_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The image block at point t is batch t of the image. -/
theorem image_block0 (c : Dev nD) (t : Fin cfg0.N) (ht : t.val < 8) (h w : Fin 64) (ch : Fin 512) :
    iblk0 V c 0 t (ix4 (0 : Fin 1) h w ch) = V c main_arg0 (ix4 (⟨t.val, ht⟩ : Fin 8) h w ch) := by
  obtain ⟨e0, e1, e2, e3, -⟩ := idx_facts0 t
  show V c main_arg0 (((cfg0.win 0).blk t).view.emb (ix4 (0 : Fin 1) h w ch)) = _
  refine congrArg (V c main_arg0) (funext fun a => Fin.ext ?_)
  match a with
  | ⟨0, _⟩ => show win0_0.index t (0 : Fin 4) * 1 + 1 * 0 = t.val; omega
  | ⟨1, _⟩ => show win0_0.index t (1 : Fin 4) * 64 + 1 * h.val = h.val; omega
  | ⟨2, _⟩ => show win0_0.index t (2 : Fin 4) * 64 + 1 * w.val = w.val; omega
  | ⟨3, _⟩ => show win0_0.index t (3 : Fin 4) * 512 + 1 * ch.val = ch.val; omega

/-- The wg block is all of wg, at every point. -/
theorem wg_block0 (c : Dev nD) (t : Fin cfg0.N) (k : Fin 512) (d : Fin 64) :
    iblk0 V c 1 t (ix2 k d) = V c main_arg2 (ix2 k d) := by
  obtain ⟨-, -, -, -, e0, e1, -⟩ := idx_facts0 t
  show V c main_arg2 (((cfg0.win 1).blk t).view.emb (ix2 k d)) = _
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 64 + 1 * d.val = d.val; omega

/-- The wh block is all of wh, at every point. -/
theorem wh_block0 (c : Dev nD) (t : Fin cfg0.N) (k : Fin 512) (e : Fin 256) :
    iblk0 V c 2 t (ix2 k e) = V c main_arg3 (ix2 k e) := by
  obtain ⟨-, -, -, -, -, -, e0, e1, -⟩ := idx_facts0 t
  show V c main_arg3 (((cfg0.win 2).blk t).view.emb (ix2 k e)) = _
  refine congrArg (V c main_arg3) (funext fun a => Fin.ext ?_)
  match a with
  | ⟨0, _⟩ => show win0_2.index t (0 : Fin 2) * 512 + 1 * k.val = k.val; omega
  | ⟨1, _⟩ => show win0_2.index t (1 : Fin 2) * 256 + 1 * e.val = e.val; omega

/-- What point t writes back to the key array is block t of the reference's key array. -/
theorem keys_flushed (c : Dev nD) (t : Fin cfg0.N) :
    (dat0 V c).flushed 3 t = ((cfg0.win 3).blk t).view.read (Elt Ideal)
      (Cert.ReferenceIdeal.Read.val_main_v7 (F := Ideal) (V c main_arg0) (V c main_arg2)) := by
  have ht : t.val < 8 := lt_of_lt_of_eq t.isLt N_0
  obtain ⟨-, -, -, -, -, -, -, -, e0, e1, e2, -⟩ := idx_facts0 t
  show (cfg0.win 3).cut (grid0.coords t) ((dat0 V c).after 3 t) = _
  rw [after0_3]
  unfold out0_3
  rw [View.canon_unit_zero zeros3]
  simp only [View.ld_unit_zero (S := S1x64x64x512) zeros4, View.ld_unit_zero (S := S512x64) zeros2]
  funext j
  obtain ⟨j0, n, d, rfl⟩ : ∃ (j0 : Fin 1) (n : Fin 1024) (d : Fin 64), j = ix3 j0 n d := ⟨j 0, j 1, j 2, eq_ix3 j⟩
  obtain rfl : j0 = 0 := Subsingleton.elim _ _
  show k0_pay2 (iblk0 V c 0 t) (iblk0 V c 1 t) (ix3 (0 : Fin 1) n d)
    = Cert.ReferenceIdeal.Read.val_main_v7 (F := Ideal) (V c main_arg0) (V c main_arg2) (((cfg0.win 3).blk t).view.emb (ix3 (0 : Fin 1) n d))
  refine (keys_entry (V c main_arg0) (V c main_arg2) (⟨t.val, ht⟩ : Fin 8) _ _
    (image_block0 V c t ht) (wg_block0 V c t) n d).trans ?_
  refine congrArg (Cert.ReferenceIdeal.Read.val_main_v7 (F := Ideal) (V c main_arg0) (V c main_arg2)) (funext fun a => Fin.ext ?_)
  match a with
  | ⟨0, _⟩ => show t.val = win0_3.index t (0 : Fin 3) * 1 + 1 * 0; omega
  | ⟨1, _⟩ => show n.val = win0_3.index t (1 : Fin 3) * 1024 + 1 * n.val; omega
  | ⟨2, _⟩ => show d.val = win0_3.index t (2 : Fin 3) * 64 + 1 * d.val; omega

/-- What point t writes back to the value array is block t of the reference's value array. -/
theorem values_flushed (c : Dev nD) (t : Fin cfg0.N) :
    (dat0 V c).flushed 4 t = ((cfg0.win 4).blk t).view.read (Elt Ideal)
      (Cert.ReferenceIdeal.Read.val_main_v9 (F := Ideal) (V c main_arg0) (V c main_arg3)) := by
  have ht : t.val < 8 := lt_of_lt_of_eq t.isLt N_0
  obtain ⟨-, -, -, -, -, -, -, -, -, -, -, e0, e1, e2⟩ := idx_facts0 t
  show (cfg0.win 4).cut (grid0.coords t) ((dat0 V c).after 4 t) = _
  rw [after0_4]
  unfold out0_4
  rw [View.canon_unit_zero zeros3]
  simp only [View.ld_unit_zero (S := S1x64x64x512) zeros4, View.ld_unit_zero (S := S512x256) zeros2]
  funext j
  obtain ⟨j0, n, e, rfl⟩ : ∃ (j0 : Fin 1) (n : Fin 1024) (e : Fin 256), j = ix3 j0 n e := ⟨j 0, j 1, j 2, eq_ix3 j⟩
  obtain rfl : j0 = 0 := Subsingleton.elim _ _
  show k0_pay3 (iblk0 V c 0 t) (iblk0 V c 2 t) (ix3 (0 : Fin 1) n e)
    = Cert.ReferenceIdeal.Read.val_main_v9 (F := Ideal) (V c main_arg0) (V c main_arg3) (((cfg0.win 4).blk t).view.emb (ix3 (0 : Fin 1) n e))
  refine (values_entry (V c main_arg0) (V c main_arg3) (⟨t.val, ht⟩ : Fin 8) _ _
    (image_block0 V c t ht) (wh_block0 V c t) n e).trans ?_
  refine congrArg (Cert.ReferenceIdeal.Read.val_main_v9 (F := Ideal) (V c main_arg0) (V c main_arg3)) (funext fun a => Fin.ext ?_)
  match a with
  | ⟨0, _⟩ => show t.val = win0_4.index t (0 : Fin 3) * 1 + 1 * 0; omega
  | ⟨1, _⟩ => show n.val = win0_4.index t (1 : Fin 3) * 1024 + 1 * n.val; omega
  | ⟨2, _⟩ => show e.val = win0_4.index t (2 : Fin 3) * 256 + 1 * e.val; omega

/-- An index of the key array is in point t's block iff each coordinate is in the block's range. -/
theorem mem_keys_block (t : Fin cfg0.N) (i : S8x1024x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v0_0).slice (win0_3.rect t)).set ↔ _
  rw [View.set_slice_whole, Rect.mem_set_unit]
  exact Iff.rfl

theorem mem_values_block (t : Fin cfg0.N) (i : S8x1024x256.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v0_1).slice (win0_4.rect t)).set ↔ _
  rw [View.set_slice_whole, Rect.mem_set_unit]
  exact Iff.rfl

/-- After the first region the key array is the reference's. -/
theorem keys_array (c : Dev nD) :
    (dat0 V c).arrAt 3 cfg0.N = Cert.ReferenceIdeal.Read.val_main_v7 (F := Ideal) (V c main_arg0) (V c main_arg2) :=
  (dat0 V c).arrAt_eq_of_cover 3 _ (fun t _ => keys_flushed V c t) (fun i => by
    have hi0 : (i 0).val < 8 := (i 0).isLt
    have hi1 : (i 1).val < 1024 := (i 1).isLt
    have hi2 : (i 2).val < 64 := (i 2).isLt
    obtain ⟨t, htv⟩ : ∃ t : Fin cfg0.N, t.val = (i 0).val := ⟨⟨(i 0).val, lt_of_lt_of_eq hi0 N_0.symm⟩, rfl⟩
    obtain ⟨-, -, -, -, -, -, -, -, e0, e1, e2, -⟩ := idx_facts0 t
    refine ⟨t, flush0_3 t, ?_⟩
    rw [mem_keys_block]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1024 ≤ (i 1).val ∧ (i 1).val < win0_3.index t (1 : Fin 3) * 1024 + 1024; omega
    | ⟨2, _⟩ => show win0_3.index t (2 : Fin 3) * 64 ≤ (i 2).val ∧ (i 2).val < win0_3.index t (2 : Fin 3) * 64 + 64; omega)

/-- After the first region the value array is the reference's. -/
theorem values_array (c : Dev nD) :
    (dat0 V c).arrAt 4 cfg0.N = Cert.ReferenceIdeal.Read.val_main_v9 (F := Ideal) (V c main_arg0) (V c main_arg3) :=
  (dat0 V c).arrAt_eq_of_cover 4 _ (fun t _ => values_flushed V c t) (fun i => by
    have hi0 : (i 0).val < 8 := (i 0).isLt
    have hi1 : (i 1).val < 1024 := (i 1).isLt
    have hi2 : (i 2).val < 256 := (i 2).isLt
    obtain ⟨t, htv⟩ : ∃ t : Fin cfg0.N, t.val = (i 0).val := ⟨⟨(i 0).val, lt_of_lt_of_eq hi0 N_0.symm⟩, rfl⟩
    obtain ⟨-, -, -, -, -, -, -, -, -, -, -, e0, e1, e2⟩ := idx_facts0 t
    refine ⟨t, flush0_4 t, ?_⟩
    rw [mem_values_block]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 1024 ≤ (i 1).val ∧ (i 1).val < win0_4.index t (1 : Fin 3) * 1024 + 1024; omega
    | ⟨2, _⟩ => show win0_4.index t (2 : Fin 3) * 256 ≤ (i 2).val ∧ (i 2).val < win0_4.index t (2 : Fin 3) * 256 + 256; omega)

end Cert.KernelIdeal.Attn

end
-- ==== Proof.ResultBlocks.lean ====
/-
  The second region's blocks. Grid point t = 4·b + q is batch b, query tile q: it reads rows
  16·q … 16·q+15 of image b, all of wf and wo, and block b of the key array and of the value array.
-/
import proofs.«125331_j85822036508890_2_alg».proof.Proof.Gen.KernelIdeal.Frame
import proofs.«125331_j85822036508890_2_alg».proof.Proof.AttnTile
import proofs.«125331_j85822036508890_2_alg».proof.Proof.KeyValueArrays

set_option maxRecDepth 16384

noncomputable section

namespace Cert.KernelIdeal.Attn

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps of the second pallas_call, decided over its thirty-two grid points. -/
theorem idx_facts1 : ∀ t : Fin cfg1.N,
    win1_0.index t (0 : Fin 4) = t.val / 4 ∧ win1_0.index t (1 : Fin 4) = t.val % 4 ∧ win1_0.index t (2 : Fin 4) = 0 ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 4 ∧ win1_3.index t (1 : Fin 3) = 0 ∧ win1_3.index t (2 : Fin 3) = 0
    ∧ win1_4.index t (0 : Fin 3) = t.val / 4 ∧ win1_4.index t (1 : Fin 3) = 0 ∧ win1_4.index t (2 : Fin 3) = 0
    ∧ win1_5.index t (0 : Fin 4) = t.val / 4 ∧ win1_5.index t (1 : Fin 4) = t.val % 4 ∧ win1_5.index t (2 : Fin 4) = 0 ∧ win1_5.index t (3 : Fin 4) = 0 :=
  (by decide +kernel : ∀ t : Fin grid1.N, _)

section Point

variable (c : Dev nD) (t : Fin cfg1.N) (ht : t.val < 32)

/-- The image block: sixteen rows of batch t / 4, from row 16·(t % 4). -/
theorem image_block1 (r : Fin 16) (w : Fin 64) (ch : Fin 512) :
    iblk1 V c 0 t (ix4 (0 : Fin 1) r w ch)
      = V c main_arg0 (ix4 (⟨t.val / 4, by omega⟩ : Fin 8) (⟨16 * (⟨t.val % 4, by omega⟩ : Fin 4).val + r.val, by show 16 * (t.val % 4) + r.val < 64; omega⟩ : Fin 64) w ch) := by
  obtain ⟨e0, e1, e2, e3, -⟩ := idx_facts1 t
  show V c main_arg0 (((cfg1.win 0).blk t).view.emb (ix4 (0 : Fin 1) r w ch)) = _
  refine congrArg (V c main_arg0) (funext fun a => Fin.ext ?_)
  match a with
  | ⟨0, _⟩ => show win1_0.index t (0 : Fin 4) * 1 + 1 * 0 = t.val / 4; omega
  | ⟨1, _⟩ => show win1_0.index t (1 : Fin 4) * 16 + 1 * r.val = 16 * (t.val % 4) + r.val; omega
  | ⟨2, _⟩ => show win1_0.index t (2 : Fin 4) * 64 + 1 * w.val = w.val; omega
  | ⟨3, _⟩ => show win1_0.index t (3 : Fin 4) * 512 + 1 * ch.val = ch.val; omega

theorem wf_block1 (k : Fin 512) (d : Fin 64) : iblk1 V c 1 t (ix2 k d) = V c main_arg1 (ix2 k d) := by
  obtain ⟨-, -, -, -, e0, e1, -⟩ := idx_facts1 t
  show V c main_arg1 (((cfg1.win 1).blk t).view.emb (ix2 k d)) = _
  refine congrArg (V c main_arg1) (funext fun a => Fin.ext ?_)
  match a with
  | ⟨0, _⟩ => show win1_1.index t (0 : Fin 2) * 512 + 1 * k.val = k.val; omega
  | ⟨1, _⟩ => show win1_1.index t (1 : Fin 2) * 64 + 1 * d.val = d.val; omega

theorem wo_block1 (e : Fin 256) (ch : Fin 512) : iblk1 V c 2 t (ix2 e ch) = V c main_arg4 (ix2 e ch) := by
  obtain ⟨-, -, -, -, -, -, e0, e1, -⟩ := idx_facts1 t
  show V c main_arg4 (((cfg1.win 2).blk t).view.emb (ix2 e ch)) = _
  refine congrArg (V c main_arg4) (funext fun a => Fin.ext ?_)
  match a with
  | ⟨0, _⟩ => show win1_2.index t (0 : Fin 2) * 256 + 1 * e.val = e.val; omega
  | ⟨1, _⟩ => show win1_2.index t (1 : Fin 2) * 512 + 1 * ch.val = ch.val; omega

/-- The key block: batch t / 4 of the key array. -/
theorem keys_block1 (m : Fin 1024) (d : Fin 64) :
    iblk1 V c 3 t (ix3 (0 : Fin 1) m d) = V c main_v0_0 (ix3 (⟨t.val / 4, by omega⟩ : Fin 8) m d) := by
  obtain ⟨-, -, -, -, -, -, -, -, e0, e1, e2, -⟩ := idx_facts1 t
  show V c main_v0_0 (((cfg1.win 3).blk t).view.emb (ix3 (0 : Fin 1) m d)) = _
  refine congrArg (V c main_v0_0) (funext fun a => Fin.ext ?_)
  match a with
  | ⟨0, _⟩ => show win1_3.index t (0 : Fin 3) * 1 + 1 * 0 = t.val / 4; omega
  | ⟨1, _⟩ => show win1_3.index t (1 : Fin 3) * 1024 + 1 * m.val = m.val; omega
  | ⟨2, _⟩ => show win1_3.index t (2 : Fin 3) * 64 + 1 * d.val = d.val; omega

/-- The value block: batch t / 4 of the value array. -/
theorem values_block1 (m : Fin 1024) (e : Fin 256) :
    iblk1 V c 4 t (ix3 (0 : Fin 1) m e) = V c main_v0_1 (ix3 (⟨t.val / 4, by omega⟩ : Fin 8) m e) := by
  obtain ⟨-, -, -, -, -, -, -, -, -, -, -, e0, e1, e2, -⟩ := idx_facts1 t
  show V c main_v0_1 (((cfg1.win 4).blk t).view.emb (ix3 (0 : Fin 1) m e)) = _
  refine congrArg (V c main_v0_1) (funext fun a => Fin.ext ?_)
  match a with
  | ⟨0, _⟩ => show win1_4.index t (0 : Fin 3) * 1 + 1 * 0 = t.val / 4; omega
  | ⟨1, _⟩ => show win1_4.index t (1 : Fin 3) * 1024 + 1 * m.val = m.val; omega
  | ⟨2, _⟩ => show win1_4.index t (2 : Fin 3) * 256 + 1 * e.val = e.val; omega

end Point

end Cert.KernelIdeal.Attn

end
-- ==== Proof.ResultArray.lean ====
/-
  From blocks to the array, second region: what each grid point writes back, and the cover. Point
  t = 4·b + q flushes rows 16·q … 16·q+15 of result b; when the key and value arrays the region finds are
  the reference's, the flushed block is that block of the reference's result, and the blocks tile the array.
-/
import proofs.«125331_j85822036508890_2_alg».proof.Proof.ResultBlocks

set_option maxRecDepth 16384

noncomputable section

namespace Cert.KernelIdeal.Attn

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

variable (Wg : S512x64.Idx → Ideal .f32) (Wh : S512x256.Idx → Ideal .f32)

/-- What point t writes back is block t of the reference's result, when the key and value arrays as the region
    finds them are the reference's of the image and some wg, wh. -/
theorem result_flushed (c : Dev nD)
    (hK : ∀ i, V c main_v0_0 i = Cert.ReferenceIdeal.Read.val_main_v7 (F := Ideal) (V c main_arg0) Wg i)
    (hV : ∀ i, V c main_v0_1 i = Cert.ReferenceIdeal.Read.val_main_v9 (F := Ideal) (V c main_arg0) Wh i)
    (t : Fin cfg1.N) :
    (dat1 V c).flushed 5 t = ((cfg1.win 5).blk t).view.read (Elt Ideal)
      (Cert.ReferenceIdeal.Read.val_main_v24 (F := Ideal) (V c main_arg0) (V c main_arg1) Wg Wh (V c main_arg4)) := by
  have ht : t.val < 32 := lt_of_lt_of_eq t.isLt N_1
  obtain ⟨-, -, -, -, -, -, -, -, -, -, -, -, -, -, e0, e1, e2, e3⟩ := idx_facts1 t
  show (cfg1.win 5).cut (grid1.coords t) ((dat1 V c).after 5 t) = _
  rw [after1_5]
  unfold out1_5
  rw [View.canon_unit_zero zeros4]
  simp only [View.ld_unit_zero (S := S1x16x64x512) zeros4, View.ld_unit_zero (S := S512x64) zeros2,
    View.ld_unit_zero (S := S256x512) zeros2, View.ld_unit_zero (S := S1x1024x64) zeros3,
    View.ld_unit_zero (S := S1x1024x256) zeros3]
  generalize hP : k1_pay1 (iblk1 V c 0 t) (iblk1 V c 1 t) (iblk1 V c 3 t) (iblk1 V c 4 t) (iblk1 V c 2 t) = P
  funext j
  refine Eq.trans ?_ (eq_of_heq (cast_heq _ _)).symm
  obtain ⟨j0, r, w, ch, rfl⟩ : ∃ (j0 : Fin 1) (r : Fin 16) (w : Fin 64) (ch : Fin 512), j = ix4 j0 r w ch :=
    ⟨j 0, j 1, j 2, j 3, eq_ix4 j⟩
  obtain rfl : j0 = 0 := Subsingleton.elim _ _
  show P (ix4 (0 : Fin 1) r w ch) = _
  subst hP
  refine (attn_entry (V c main_arg0) (V c main_arg1) Wg Wh (V c main_arg4)
    (⟨t.val / 4, by omega⟩ : Fin 8) (⟨t.val % 4, by omega⟩ : Fin 4)
    (iblk1 V c 0 t) (iblk1 V c 1 t) (iblk1 V c 3 t) (iblk1 V c 4 t) (iblk1 V c 2 t)
    (image_block1 V c t ht) (wf_block1 V c t)
    (fun m d => (keys_block1 V c t ht m d).trans (hK _))
    (fun m e => (values_block1 V c t ht m e).trans (hV _))
    (wo_block1 V c t) r w ch).trans ?_
  refine congrArg (Cert.ReferenceIdeal.Read.val_main_v24 (F := Ideal) (V c main_arg0) (V c main_arg1) Wg Wh (V c main_arg4)) (funext fun a => Fin.ext ?_)
  match a with
  | ⟨0, _⟩ => show t.val / 4 = win1_5.index t (0 : Fin 4) * 1 + 1 * 0; omega
  | ⟨1, _⟩ => show 16 * (t.val % 4) + r.val = win1_5.index t (1 : Fin 4) * 16 + 1 * r.val; omega
  | ⟨2, _⟩ => show w.val = win1_5.index t (2 : Fin 4) * 64 + 1 * w.val; omega
  | ⟨3, _⟩ => show ch.val = win1_5.index t (3 : Fin 4) * 512 + 1 * ch.val; omega

theorem mem_result_block (t : Fin cfg1.N) (i : S8x64x64x512.Idx) :
    i ∈ ((cfg1.win 5).blk t).view.set ↔ ∀ a : Fin 4, win1_5.index t a * S1x16x64x512.size a ≤ (i a).val
      ∧ (i a).val < win1_5.index t a * S1x16x64x512.size a + S1x16x64x512.size a := by
  show i ∈ ((View.whole main_v1).slice (win1_5.rect t)).set ↔ _
  rw [View.set_slice_whole, Rect.mem_set_unit]
  exact Iff.rfl

/-- After the second region the result array is the reference's result. -/
theorem result_array (c : Dev nD)
    (hK : ∀ i, V c main_v0_0 i = Cert.ReferenceIdeal.Read.val_main_v7 (F := Ideal) (V c main_arg0) Wg i)
    (hV : ∀ i, V c main_v0_1 i = Cert.ReferenceIdeal.Read.val_main_v9 (F := Ideal) (V c main_arg0) Wh i) :
    (dat1 V c).arrAt 5 cfg1.N = Cert.ReferenceIdeal.Read.val_main_v24 (F := Ideal) (V c main_arg0) (V c main_arg1) Wg Wh (V c main_arg4) :=
  (dat1 V c).arrAt_eq_of_cover 5 _ (fun t _ => result_flushed V Wg Wh c hK hV t) (fun i => by
    have hi0 : (i 0).val < 8 := (i 0).isLt
    have hi1 : (i 1).val < 64 := (i 1).isLt
    have hi2 : (i 2).val < 64 := (i 2).isLt
    have hi3 : (i 3).val < 512 := (i 3).isLt
    obtain ⟨t, htv⟩ : ∃ t : Fin cfg1.N, t.val = 4 * (i 0).val + (i 1).val / 16 :=
      ⟨⟨4 * (i 0).val + (i 1).val / 16, lt_of_lt_of_eq (by omega) N_1.symm⟩, rfl⟩
    obtain ⟨-, -, -, -, -, -, -, -, -, -, -, -, -, -, e0, e1, e2, e3⟩ := idx_facts1 t
    refine ⟨t, flush1_5 t, ?_⟩
    rw [mem_result_block]
    intro a
    match a with
    | ⟨0, _⟩ => show win1_5.index t (0 : Fin 4) * 1 ≤ (i 0).val ∧ (i 0).val < win1_5.index t (0 : Fin 4) * 1 + 1; omega
    | ⟨1, _⟩ => show win1_5.index t (1 : Fin 4) * 16 ≤ (i 1).val ∧ (i 1).val < win1_5.index t (1 : Fin 4) * 16 + 16; omega
    | ⟨2, _⟩ => show win1_5.index t (2 : Fin 4) * 64 ≤ (i 2).val ∧ (i 2).val < win1_5.index t (2 : Fin 4) * 64 + 64; omega
    | ⟨3, _⟩ => show win1_5.index t (3 : Fin 4) * 512 ≤ (i 3).val ∧ (i 3).val < win1_5.index t (3 : Fin 4) * 512 + 512; omega)

end Cert.KernelIdeal.Attn

end
-- ==== Proof.lean ====
/-
  A self-attention layer over an image x of shape [8,64,64,512]: queries f = x·wf at the 4096 pixels of
  each image; keys g and values h from the 2×2-average-pooled image (1024 positions) against wg and wh;
  attention weights softmax(f·gᵀ) along the keys; result (weights·h)·wo. The kernel computes it in two
  pallas_calls — one grid point per image for the keys and values, one per image and per 1024 queries for
  the rest, every key and value resident — and the reference with whole-array operations.

  On the extended reals the two programs are ONE function of the arguments. Matrix products are the same
  sums, tiled differently; the softmax is written the same way on both sides (row maximum from −∞,
  exponentials of the differences, row sum, quotient); the pool is the four entries of a cell summed in
  two steps and multiplied by one quarter against summed in one step and divided by four, which agree on
  every extended real. No law is used that needs finiteness, so the precondition is never opened.

  The kernel's result array is read off its run region by region: after the first region the key and
  value arrays are the reference's key and value stages of the launch arguments; the second region, finding
  those, leaves the reference's result stage in the result array. The reference's run ends at the same
  stage of its own arguments, which agree with the kernel's. The ideal pass rewrote nothing, so the
  idealized kernel is the kernel's own text and that conjunct is trivial.
-/
import proofs.«125331_j85822036508890_2_alg».proof.Defs
import proofs.«125331_j85822036508890_2_alg».proof.Proof.Gen.Kernel
import proofs.«125331_j85822036508890_2_alg».proof.Proof.Gen.Kernel.Skeleton
import proofs.«125331_j85822036508890_2_alg».proof.Proof.Gen.Kernel.Launch
import proofs.«125331_j85822036508890_2_alg».proof.Proof.Gen.Kernel.Points
import proofs.«125331_j85822036508890_2_alg».proof.Proof.Gen.Kernel.Frame
import proofs.«125331_j85822036508890_2_alg».proof.Proof.Gen.KernelIdeal
import proofs.«125331_j85822036508890_2_alg».proof.Proof.Gen.KernelIdeal.Skeleton
import proofs.«125331_j85822036508890_2_alg».proof.Proof.Gen.KernelIdeal.Launch
import proofs.«125331_j85822036508890_2_alg».proof.Proof.Gen.KernelIdeal.Points
import proofs.«125331_j85822036508890_2_alg».proof.Proof.Gen.KernelIdeal.Frame
import proofs.«125331_j85822036508890_2_alg».proof.Proof.Gen.ReferenceIdeal
import proofs.«125331_j85822036508890_2_alg».proof.Proof.Gen.Pre_finite_inputs
import proofs.«125331_j85822036508890_2_alg».proof.Proof.Gen.ReferenceIdeal.Run
import proofs.«125331_j85822036508890_2_alg».proof.Proof.Gen.ReferenceIdeal.Read
import proofs.«125331_j85822036508890_2_alg».proof.Proof.ResultRun
import proofs.«125331_j85822036508890_2_alg».proof.Proof.ResultArray
import Idealize.ShloMosaic.Adequacy
import Idealize.ShloMosaic.Init

set_option maxRecDepth 16384

noncomputable section

namespace Cert.KernelIdeal.Attn

open Cert.KernelIdeal Cert.KernelIdeal.Gen Idealize.ShloMosaic Idealize.ShloMosaic.TcCoe Idealize.SL.Sem

/-- The contents the second region leaves in the result array: the reference's result stage of the launch arguments. -/
theorem result_contents (m : (ℓ : Loc nD τ sig) → Buf (Elt Ideal) ℓ) (ρ : Dev nD → PrngReg) (c : Dev nD) :
    W2 m ρ c (Proc.devRef .tc main_v1)
      = Cert.ReferenceIdeal.Read.val_main_v24 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  have a0 : V1 m ρ c main_arg0 = m ((c.tc : Thread nD τ).loc main_arg0) :=
    (W1_arr m ρ c 0).trans (((dat0 (V0 m ρ) c).arrAt_in 0 rfl _).trans (A_eq0 (V0 m ρ) c 0))
  have a1 : V1 m ρ c main_arg1 = m ((c.tc : Thread nD τ).loc main_arg1) := W1_of_ne m ρ c main_arg1 (by decide)
  have a4 : V1 m ρ c main_arg4 = m ((c.tc : Thread nD τ).loc main_arg4) := W1_of_ne m ρ c main_arg4 (by decide)
  have hK : ∀ i, V1 m ρ c main_v0_0 i
      = Cert.ReferenceIdeal.Read.val_main_v7 (F := Ideal) (V1 m ρ c main_arg0) (m ((c.tc : Thread nD τ).loc main_arg2)) i := fun i => by
    rw [a0]; exact congrFun ((W1_arr m ρ c 3).trans (keys_array (V0 m ρ) c)) i
  have hV : ∀ i, V1 m ρ c main_v0_1 i
      = Cert.ReferenceIdeal.Read.val_main_v9 (F := Ideal) (V1 m ρ c main_arg0) (m ((c.tc : Thread nD τ).loc main_arg3)) i := fun i => by
    rw [a0]; exact congrFun ((W1_arr m ρ c 4).trans (values_array (V0 m ρ) c)) i
  refine (W2_arr m ρ c 5).trans ?_
  refine (result_array (V1 m ρ) _ _ c hK hV).trans ?_
  rw [a0, a1, a4]

end Cert.KernelIdeal.Attn

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the kernel's arguments in their result arrays. -/
theorem algebraic : Cert.algebraic_KernelIdeal_ReferenceIdeal := by
  intro m ρ m' ρ' _ hagree
  refine ⟨fun c => Cert.ReferenceIdeal.Read.val_main_v24 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Attn.result_contents m ρ c), (h c).2⟩)
      (Cert.KernelIdeal.Attn.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v24_eq, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
